-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x1024 : Shape := ⟨2, ![512, 1024]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S512x512 .f32) (main_arg1 : FVec F S512x1024 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S512x512 : Shape := ⟨2, ![512, 512]⟩
abbrev S512x1024 : Shape := ⟨2, ![512, 1024]⟩
abbrev S128x512 : Shape := ⟨2, ![128, 512]⟩
abbrev S128x1024 : Shape := ⟨2, ![128, 1024]⟩
abbrev S512x64x16 : Shape := ⟨3, ![512, 64, 16]⟩
abbrev S512x16x64 : Shape := ⟨3, ![512, 16, 64]⟩
abbrev S16x64x512 : Shape := ⟨3, ![16, 64, 512]⟩
abbrev S512x64 : Shape := ⟨2, ![512, 64]⟩
abbrev S128x16x64 : Shape := ⟨3, ![128, 16, 64]⟩
abbrev S16x64x128 : Shape := ⟨3, ![16, 64, 128]⟩
abbrev S128x64 : Shape := ⟨2, ![128, 64]⟩
abbrev S128x64x128 : Shape := ⟨3, ![128, 64, 128]⟩
abbrev S128x1x64 : Shape := ⟨3, ![128, 1, 64]⟩
abbrev S1x64x128 : Shape := ⟨3, ![1, 64, 128]⟩
abbrev S64x128 : Shape := ⟨2, ![64, 128]⟩
abbrev S128x64x1 : Shape := ⟨3, ![128, 64, 1]⟩
abbrev S128x128 : Shape := ⟨2, ![128, 128]⟩
abbrev S128x1x128 : Shape := ⟨3, ![128, 1, 128]⟩
abbrev S512x576 : Shape := ⟨2, ![512, 576]⟩

abbrev nBuf : Space → Nat
  | .hbm => 8
  | .vmem => 13
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S512x1024, .f32⟩
  | .hbm, ⟨3, _⟩ => ⟨S512x64x16, .f32⟩
  | .hbm, ⟨4, _⟩ => ⟨S512x16x64, .f32⟩
  | .hbm, ⟨5, _⟩ => ⟨S16x64x512, .f32⟩
  | .hbm, ⟨6, _⟩ => ⟨S512x64, .f32⟩
  | .hbm, ⟨7, _⟩ => ⟨S512x576, .f32⟩
  | .local _ .vmem, ⟨0, _⟩ => ⟨S128x512, .f32⟩
  | .local _ .vmem, ⟨1, _⟩ => ⟨S128x512, .f32⟩
  | .local _ .vmem, ⟨2, _⟩ => ⟨S512x1024, .f32⟩
  | .local _ .vmem, ⟨3, _⟩ => ⟨S128x1024, .f32⟩
  | .local _ .vmem, ⟨4, _⟩ => ⟨S128x1024, .f32⟩
  | .local _ .vmem, ⟨5, _⟩ => ⟨S128x16x64, .f32⟩
  | .local _ .vmem, ⟨6, _⟩ => ⟨S128x16x64, .f32⟩
  | .local _ .vmem, ⟨7, _⟩ => ⟨S16x64x128, .f32⟩
  | .local _ .vmem, ⟨8, _⟩ => ⟨S16x64x128, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S128x64x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v271 : BitVec 1 := Scalar.cmpi .eq arg1 c3_i32
  let v272 : BitVec 32 := Scalar.extui v271
  let c0_i32_190 : BitVec 32 := 0#32
  let v273 : BitVec 1 := Scalar.cmpi .ne v272 c0_i32_190
  v273

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S128x512_S128x512_0_0 : ∀ a, (![0, 0] : Fin 2 → Nat) a + S128x512.size a ≤ S128x512.size a
  h_S128x512 : 0 < S128x512.numel
  inb_S512x1024_S512x1024_0_0 : ∀ a, (![0, 0] : Fin 2 → Nat) a + S512x1024.size a ≤ S512x1024.size a
  h_S512x1024 : 0 < S512x1024.numel
  inb_S128x1024_S128x1024_0_0 : ∀ a, (![0, 0] : Fin 2 → Nat) a + S128x1024.size a ≤ S128x1024.size a
  h_S128x1024 : 0 < S128x1024.numel
  shapeCasts_S512x1024_S512x64x16 : S512x1024.ShapeCasts S512x64x16
  transposes_S512x64x16_S512x16x64_0_2_1 : S512x64x16.Transposes [0, 2, 1] S512x16x64
  transposes_S512x16x64_S16x64x512_1_2_0 : S512x16x64.Transposes [1, 2, 0] S16x64x512
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  inb_S128x16x64_S128x1x64_0_0_0 : ∀ a, (![0, 0, 0] : Fin 3 → Nat) a + S128x1x64.size a ≤ S128x16x64.size a
  h_S128x1x64 : 0 < S128x1x64.numel
  shapeCasts_S128x1x64_S128x64 : S128x1x64.ShapeCasts S128x64
  inb_S16x64x128_S1x64x128_0_0_0 : ∀ a, (![0, 0, 0] : Fin 3 → Nat) a + S1x64x128.size a ≤ S16x64x128.size a
  h_S1x64x128 : 0 < S1x64x128.numel
  shapeCasts_S1x64x128_S64x128 : S1x64x128.ShapeCasts S64x128
  shapeCasts_S128x64_S128x64x1 : S128x64.ShapeCasts S128x64x1
  shapeCasts_S64x128_S1x64x128 : S64x128.ShapeCasts S1x64x128
  broadcasts_S128x64x1_S128x64x128 : S128x64x1.Broadcasts S128x64x128
  broadcasts_S1x64x128_S128x64x128 : S1x64x128.Broadcasts S128x64x128
  inb_S128x16x64_S128x1x64_0_1_0 : ∀ a, (![0, 1, 0] : Fin 3 → Nat) a + S128x1x64.size a ≤ S128x16x64.size a
  inb_S16x64x128_S1x64x128_1_0_0 : ∀ a, (![1, 0, 0] : Fin 3 → Nat) a + S1x64x128.size a ≤ S16x64x128.size a
  inb_S128x16x64_S128x1x64_0_2_0 : ∀ a, (![0, 2, 0] : Fin 3 → Nat) a + S128x1x64.size a ≤ S128x16x64.size a
  inb_S16x64x128_S1x64x128_2_0_0 : ∀ a, (![2, 0, 0] : Fin 3 → Nat) a + S1x64x128.size a ≤ S16x64x128.size a
  inb_S128x16x64_S128x1x64_0_3_0 : ∀ a, (![0, 3, 0] : Fin 3 → Nat) a + S128x1x64.size a ≤ S128x16x64.size a
  inb_S16x64x128_S1x64x128_3_0_0 : ∀ a, (![3, 0, 0] : Fin 3 → Nat) a + S1x64x128.size a ≤ S16x64x128.size a
  inb_S128x16x64_S128x1x64_0_4_0 : ∀ a, (![0, 4, 0] : Fin 3 → Nat) a + S128x1x64.size a ≤ S128x16x64.size a
  inb_S16x64x128_S1x64x128_4_0_0 : ∀ a, (![4, 0, 0] : Fin 3 → Nat) a + S1x64x128.size a ≤ S16x64x128.size a
  inb_S128x16x64_S128x1x64_0_5_0 : ∀ a, (![0, 5, 0] : Fin 3 → Nat) a + S128x1x64.size a ≤ S128x16x64.size a
  inb_S16x64x128_S1x64x128_5_0_0 : ∀ a, (![5, 0, 0] : Fin 3 → Nat) a + S1x64x128.size a ≤ S16x64x128.size a
  inb_S128x16x64_S128x1x64_0_6_0 : ∀ a, (![0, 6, 0] : Fin 3 → Nat) a + S128x1x64.size a ≤ S128x16x64.size a
  inb_S16x64x128_S1x64x128_6_0_0 : ∀ a, (![6, 0, 0] : Fin 3 → Nat) a + S1x64x128.size a ≤ S16x64x128.size a
  inb_S128x16x64_S128x1x64_0_7_0 : ∀ a, (![0, 7, 0] : Fin 3 → Nat) a + S128x1x64.size a ≤ S128x16x64.size a
  inb_S16x64x128_S1x64x128_7_0_0 : ∀ a, (![7, 0, 0] : Fin 3 → Nat) a + S1x64x128.size a ≤ S16x64x128.size a
  inb_S128x16x64_S128x1x64_0_8_0 : ∀ a, (![0, 8, 0] : Fin 3 → Nat) a + S128x1x64.size a ≤ S128x16x64.size a
  inb_S16x64x128_S1x64x128_8_0_0 : ∀ a, (![8, 0, 0] : Fin 3 → Nat) a + S1x64x128.size a ≤ S16x64x128.size a
  inb_S128x16x64_S128x1x64_0_9_0 : ∀ a, (![0, 9, 0] : Fin 3 → Nat) a + S128x1x64.size a ≤ S128x16x64.size a
  inb_S16x64x128_S1x64x128_9_0_0 : ∀ a, (![9, 0, 0] : Fin 3 → Nat) a + S1x64x128.size a ≤ S16x64x128.size a
  inb_S128x16x64_S128x1x64_0_10_0 : ∀ a, (![0, 10, 0] : Fin 3 → Nat) a + S128x1x64.size a ≤ S128x16x64.size a
  inb_S16x64x128_S1x64x128_10_0_0 : ∀ a, (![10, 0, 0] : Fin 3 → Nat) a + S1x64x128.size a ≤ S16x64x128.size a
  inb_S128x16x64_S128x1x64_0_11_0 : ∀ a, (![0, 11, 0] : Fin 3 → Nat) a + S128x1x64.size a ≤ S128x16x64.size a
  inb_S16x64x128_S1x64x128_11_0_0 : ∀ a, (![11, 0, 0] : Fin 3 → Nat) a + S1x64x128.size a ≤ S16x64x128.size a
  inb_S128x16x64_S128x1x64_0_12_0 : ∀ a, (![0, 12, 0] : Fin 3 → Nat) a + S128x1x64.size a ≤ S128x16x64.size a
  inb_S16x64x128_S1x64x128_12_0_0 : ∀ a, (![12, 0, 0] : Fin 3 → Nat) a + S1x64x128.size a ≤ S16x64x128.size a
  inb_S128x16x64_S128x1x64_0_13_0 : ∀ a, (![0, 13, 0] : Fin 3 → Nat) a + S128x1x64.size a ≤ S128x16x64.size a
  inb_S16x64x128_S1x64x128_13_0_0 : ∀ a, (![13, 0, 0] : Fin 3 → Nat) a + S1x64x128.size a ≤ S16x64x128.size a
  inb_S128x16x64_S128x1x64_0_14_0 : ∀ a, (![0, 14, 0] : Fin 3 → Nat) a + S128x1x64.size a ≤ S128x16x64.size a
  inb_S16x64x128_S1x64x128_14_0_0 : ∀ a, (![14, 0, 0] : Fin 3 → Nat) a + S1x64x128.size a ≤ S16x64x128.size a
  inb_S128x16x64_S128x1x64_0_15_0 : ∀ a, (![0, 15, 0] : Fin 3 → Nat) a + S128x1x64.size a ≤ S128x16x64.size a
  inb_S16x64x128_S1x64x128_15_0_0 : ∀ a, (![15, 0, 0] : Fin 3 → Nat) a + S1x64x128.size a ≤ S16x64x128.size a
  iota_S128x128_d0_w32 : S128x128.Iotas .tc 32 [0]
  iota_S128x128_d1_w32 : S128x128.Iotas .tc 32 [1]
  natLt_1_32 : 1 < 32
  shapeCasts_S128x128_S128x1x128 : S128x128.ShapeCasts S128x1x128
  broadcasts_S128x1x128_S128x64x128 : S128x1x128.Broadcasts S128x64x128
  reduces_S128x64x128_S128x64 : S128x64x128.Reduces [2] S128x64
  concatenates_S512x512_S512x64_S512x576_d1 : Shape.Concatenates [S512x512, S512x64] S512x576 1
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16x64.size a ≤ S512x16x64.size a
  hwx1_0 : ∀ i : grid1.Coords, EltTy.bits .f32 = 32 ∨ (Rect.block (s := S512x16x64) S128x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x64x128.size a ≤ S16x64x512.size a
  hwx1_1 : ∀ i : grid1.Coords, EltTy.bits .f32 = 32 ∨ (Rect.block (s := S16x64x512) S16x64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S512x64.size a
  hwx1_2 : ∀ i : grid1.Coords, EltTy.bits .f32 = 32 ∨ (Rect.block (s := S512x64) S128x64.size (cc1_transform_2 i) (hinb1_2 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S128x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S16x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x512 : Shape := ⟨2, ![512, 512]⟩
abbrev S512x1024 : Shape := ⟨2, ![512, 1024]⟩
abbrev S512x64x16 : Shape := ⟨3, ![512, 64, 16]⟩
abbrev S512x1x64x16 : Shape := ⟨4, ![512, 1, 64, 16]⟩
abbrev S1x512x64x16 : Shape := ⟨4, ![1, 512, 64, 16]⟩
abbrev S512x512x64x16 : Shape := ⟨4, ![512, 512, 64, 16]⟩
abbrev S_ : Shape := ⟨0, ![]⟩
abbrev S512x512x64 : Shape := ⟨3, ![512, 512, 64]⟩
abbrev S512x512x1 : Shape := ⟨3, ![512, 512, 1]⟩
abbrev S512x64 : Shape := ⟨2, ![512, 64]⟩
abbrev S512x576 : Shape := ⟨2, ![512, 576]⟩

abbrev nBuf : Space → Nat
  | .hbm => 30
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S512x1024, .f32⟩
  | .hbm, ⟨3, _⟩ => ⟨S512x64x16, .f32⟩
  | .hbm, ⟨4, _⟩ => ⟨S512x1x64x16, .f32⟩
  | .hbm, ⟨5, _⟩ => ⟨S1x512x64x16, .f32⟩
  | .hbm, ⟨6, _⟩ => ⟨S512x512x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S_, .f32⟩
  | .hbm, ⟨11, _⟩ => ⟨S512x512x64, .f32⟩
  | .hbm, ⟨12, _⟩ => ⟨S512x512x64, .f32⟩
  | .hbm, ⟨13, _⟩ => ⟨S512x512x64, .f32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .f32⟩
  | .hbm, ⟨21, _⟩ => ⟨S512x512x1, .f32⟩
  | .hbm, ⟨22, _⟩ => ⟨S_, .f32⟩
  | .hbm, ⟨23, _⟩ => ⟨S512x512x1, .f32⟩
  | .hbm, ⟨24, _⟩ => ⟨S512x512x1, .f32⟩
  | .hbm, ⟨25, _⟩ => ⟨S512x512x64, .f32⟩
  | .hbm, ⟨26, _⟩ => ⟨S512x512x64, .f32⟩
  | .hbm, ⟨27, _⟩ => ⟨S_, .f32⟩
  | .hbm, ⟨28, _⟩ => ⟨S512x64, .f32⟩
  | .hbm, ⟨29, _⟩ => ⟨S512x576, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  shapeCasts_S512x1024_S512x64x16 : S512x1024.ShapeCasts S512x64x16
  bcast_S512x64x16_S512x1x64x16_0_2_3 : S512x64x16.BroadcastsInDim S512x1x64x16 (![0, 2, 3] : Fin 3 → Fin S512x1x64x16.rank)
  bcast_S512x64x16_S1x512x64x16_1_2_3 : S512x64x16.BroadcastsInDim S1x512x64x16 (![1, 2, 3] : Fin 3 → Fin S1x512x64x16.rank)
  bcast_S512x1x64x16_S512x512x64x16_0_1_2_3 : S512x1x64x16.BroadcastsInDim S512x512x64x16 (![0, 1, 2, 3] : Fin 4 → Fin S512x512x64x16.rank)
  bcast_S1x512x64x16_S512x512x64x16_0_1_2_3 : S1x512x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  bcast_S512x512x1_S512x512x64_0_1_2 : S512x512x1.BroadcastsInDim S512x512x64 (![0, 1, 2] : Fin 3 → Fin S512x512x64.rank)
  reducesTo_S512x512x64_S512x64_d1 : S512x512x64.ReducesTo [1] S512x64
  concatenates_S512x512_S512x64_S512x576_d1 : Shape.Concatenates [S512x512, S512x64] S512x576 1
  dot_S512x512_S512x1024_S512x1024_1_0_0_1_n_n_wf : DotDims.WF S512x512 S512x1024 S512x1024 [1] [0] [0] [1] [] []

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.K.R0.lean ====
import proofs.«141043_j33517924778715_2_alg».proof.Proof.Gen.Kernel.Launch
import proofs.«141043_j33517924778715_2_alg».proof.Proof.Gen.Kernel.Skeleton
import proofs.«141043_j33517924778715_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The matmul region of the kernel program, at any entry contents

The first TensorCore region runs the matmul body on a grid of four points. At point `t` the body
finds row block `t` of the left operand (128 rows of 512) in its first buffer and the whole right
operand (512 by 1024) in its second, and stores their product (128 by 1024, accumulated from zero)
over its third buffer, which is written back to row block `t` of the result.

This file states that, for any contents `V` of the core's buffers when the region is entered: the
blocks the windows read (`iblk0`), what the body leaves in the output buffer as a closed function of
the two input blocks (`out0_2`), the body's triple (`sound_kernel0`), the pipeline's proof data
(`dat0`) and the body obligation (`body_obligation0`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's current staging buffer holds its row block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole operand at every point although it is fetched at the
    first point only: its block index never moves, so an unfetched point still finds the previous point's
    block, which is its own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S128x512 := Rect.unit (s := S128x512) ![0, 0] S128x512.size inb_S128x512_S128x512_0_0
abbrev r0_1 : Rect S512x1024 := Rect.unit (s := S512x1024) ![0, 0] S512x1024.size inb_S512x1024_S512x1024_0_0
abbrev r0_2 : Rect S128x1024 := Rect.unit (s := S128x1024) ![0, 0] S128x1024.size inb_S128x1024_S128x1024_0_0

/-! ## What the body leaves in the output buffer -/

/-- The output buffer after the body, from the two input blocks: its one store, of the product of the two
    loads accumulated from zero, laid over the whole buffer. -/
def out0_2 (x0 : Vec F S128x512 .f32) (x1 : Vec F S512x1024 .f32) : Vec F S128x1024 .f32 :=
  View.canon [⟨r0_2, k0_pay1 (View.ld x0 r0_0) (View.ld x1 r0_1)⟩]

/-- The store covers the buffer. -/
theorem cover0_2 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-! ## The body's triple -/

set_option maxHeartbeats 1000000 in
/-- The body on whole staging memrefs, the two inputs' at read contents `x0`, `x1` and the output's at anything,
    runs to the continuation holding the inputs' as they were and the output's at `out0_2 x0 x1`. The body also
    reads the output buffer before overwriting it; that value is never used, and the store covers the buffer, so
    the prior contents do not matter. -/
theorem sound_kernel0 (c : Dev nD) (E : Set ℕ) (i : grid0.Coords) (arg1 : Memref sig .tc .vmem S128x512 .f32) (harg1 : arg1.IsWhole) (arg2 : Memref sig .tc .vmem S512x1024 .f32) (harg2 : arg2.IsWhole) (arg3 : Memref sig .tc .vmem S128x1024 .f32) (harg3 : arg3.IsWhole)
    (x0 : Vec F S128x512 .f32) (x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t`
    each input's buffer still at its block and the output's at `out0_2` of the two input blocks; the invariant
    holds the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  Pipeline region 1 (the pairwise-distance kernel on the 4 × 4 grid of row blocks and column blocks): what its
  three control cases share. The grid is walked row block by row block, the column block innermost, so point t
  has column block t mod 4. The accumulator scratch is zeroed when the column block is 0 and copied to the
  output block when it is 3; the output window is idle at the other points and written back only at the last
  column block of each row block.
-/
import proofs.«141043_j33517924778715_2_alg».proof.Proof.Gen.Kernel.Launch
import proofs.«141043_j33517924778715_2_alg».proof.Proof.Gen.Kernel.Skeleton
import proofs.«141043_j33517924778715_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's staging buffer holds its block at every point, fetched there or not: between two
    fetches the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the column-block input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions -/

/-- The accumulator is zeroed: the column block is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The accumulator is copied out: the column block is the last one. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- A staging buffer of the output window, through which its contents are stated. -/
abbrev VO1_2 : View sig .tc .vmem S128x64 .f32 := (Memref.whole cc1_stg2_0 : Memref sig .tc .vmem S128x64 .f32).view
abbrev ms1_0 (t : Fin cfg1.N) : Memref sig .tc .vmem S128x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
/-- The accumulator scratch, carried from one column block to the next. -/
abbrev scM1_0 : Memref sig .tc .vmem S128x64 .f32 := Memref.whole cc1_scratch0
/-- The distance scratch, rebuilt from zero at every point. -/
abbrev scM1_1 : Memref sig .tc .vmem S128x64x128 .f32 := Memref.whole cc1_scratch1
abbrev VS1_0 : View sig .tc .vmem S128x64 .f32 := scM1_0.view

/-- The region's resting invariant, conjunct by conjunct: the other region's staging buffers and the two scratch
    buffers, each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Hand

end
-- ==== Proof.K.R1RunA.lean ====
/-
  Region 1's body run whole in case A (column block 0: the accumulator is zeroed and added to): on whole staging memrefs holding the two input blocks, the
  body runs to its end leaving the inputs and the output buffer as they were (the case stores nothing into the
  output), the accumulator scratch with the case's stores written into it (the list the run finds), and the
  distance scratch at some contents.
-/
import proofs.«141043_j33517924778715_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : cond1_0 i) (hc1 : ¬cond1_1 i)
    (x0 : Vec F S128x16x64 .f32) (x1 : Vec F S16x64x128 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ d, owns (c : Thread nD τ) arg6 fullShare d)) -∗ K ⟨⟩))
          ⊢ wp frame (wpE (defs₀ (F := F)) Variants.none c none) E (cc1__discrim_kernel i arg2 harg2 arg3 harg3 arg4 harg4 arg5 harg5 arg6 harg6) K } := by
  refine ⟨[], ?_, fun xi2 E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%ds0, %fs0, -, HS0⟩, ⟨%d6, %f6, -, H6⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexists _; isplitr
    swap; · iexact H6
    ipureintro; rfl

end Cert.Kernel.Hand

end
-- ==== Proof.K.R1RunB.lean ====
/-
  Region 1's body run whole in case B (column blocks 1 and 2: the accumulator is added to): on whole staging memrefs holding the two input blocks, the
  body runs to its end leaving the inputs and the output buffer as they were (the case stores nothing into the
  output), the accumulator scratch with the case's stores written into it (the list the run finds), and the
  distance scratch at some contents.
-/
import proofs.«141043_j33517924778715_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : ¬cond1_1 i)
    (x0 : Vec F S128x16x64 .f32) (x1 : Vec F S16x64x128 .f32) (xs0 : Vec F S128x64 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ d, owns (c : Thread nD τ) arg6 fullShare d)) -∗ K ⟨⟩))
          ⊢ wp frame (wpE (defs₀ (F := F)) Variants.none c none) E (cc1__discrim_kernel i arg2 harg2 arg3 harg3 arg4 harg4 arg5 harg5 arg6 harg6) K } := by
  refine ⟨[], ?_, fun xi2 E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%fs0, %hfs0, HS0⟩, ⟨%d6, %f6, -, H6⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexists _; isplitr
    swap; · iexact H6
    ipureintro; rfl

end Cert.Kernel.Hand

end
-- ==== Proof.K.R1RunC.lean ====
/-
  Region 1's body run whole in case C (column block 3: the accumulator is added to and copied to the output block): on whole staging memrefs holding the two input blocks, the
  body runs to its end leaving the inputs as they were, the output buffer and the accumulator scratch with the
  stores the case makes written into them (the lists the run finds), and the distance scratch at some contents.
-/
import proofs.«141043_j33517924778715_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ d, owns (c : Thread nD τ) arg6 fullShare d)) -∗ K ⟨⟩))
          ⊢ wp frame (wpE (defs₀ (F := F)) Variants.none c none) E (cc1__discrim_kernel i arg2 harg2 arg3 harg3 arg4 harg4 arg5 harg5 arg6 harg6) K } := by
  refine ⟨?_, ?_, fun E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%d2, %f2, -, H2⟩, ⟨%fs0, %hfs0, HS0⟩, ⟨%d6, %f6, -, H6⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexists _; isplitr
    swap; · iexact H6
    ipureintro; rfl

end Cert.Kernel.Hand

end
-- ==== Proof.K.R1.lean ====
/-
  Pipeline region 1, the rest of its frame: what the output buffer and the accumulator scratch hold after each
  grid point (by recursion on the point: a point whose column block is 0 starts from zero, every other point
  from what the point before left in the scratch), the region's invariant carrying the scratch at those contents,
  the proof data, and the body's obligation at every point.
-/
import proofs.«141043_j33517924778715_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output buffer: its stores read back (none: a placeholder nothing consults, the window being idle and not written back at these points). -/
def out1_A_2 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : cond1_0 i) (hc1 : ¬cond1_1 i)
    (x0 : Vec F S128x16x64 .f32) (x1 : Vec F S16x64x128 .f32) : Vec F S128x64 .f32 :=
  VO1_2.read (Elt F) (VO1_2.writes (Elt F) VO1_2.junk (kernelRun1_A c i arg2 harg2 arg3 harg3 arg4 harg4 arg5 harg5 arg6 harg6 hc0 hc1 x0 x1).1)

/-- In case A the stores into the accumulator scratch cover it. -/
theorem scover1_A_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : cond1_0 i) (hc1 : ¬cond1_1 i)
    (x0 : Vec F S128x16x64 .f32) (x1 : Vec F S16x64x128 .f32) (y : S128x64.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S128x64.size (by sl_kernel_rfl) y

/-- What case A leaves in the accumulator scratch: its stores read back. -/
def sout1_A_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : cond1_0 i) (hc1 : ¬cond1_1 i)
    (x0 : Vec F S128x16x64 .f32) (x1 : Vec F S16x64x128 .f32) : Vec F S128x64 .f32 :=
  VS1_0.read (Elt F) (VS1_0.writes (Elt F) VS1_0.junk (kernelRun1_A c i arg2 harg2 arg3 harg3 arg4 harg4 arg5 harg5 arg6 harg6 hc0 hc1 x0 x1).2.1)

/-- What case B leaves in the output buffer: its stores read back (none: a placeholder nothing consults, the window being idle and not written back at these points). -/
def out1_B_2 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : ¬cond1_1 i)
    (x0 : Vec F S128x16x64 .f32) (x1 : Vec F S16x64x128 .f32) (xs0 : Vec F S128x64 .f32) : Vec F S128x64 .f32 :=
  VO1_2.read (Elt F) (VO1_2.writes (Elt F) VO1_2.junk (kernelRun1_B c i arg2 harg2 arg3 harg3 arg4 harg4 arg5 harg5 arg6 harg6 hc0 hc1 x0 x1 xs0).1)

/-- In case B the stores into the accumulator scratch cover it. -/
theorem scover1_B_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : ¬cond1_1 i)
    (x0 : Vec F S128x16x64 .f32) (x1 : Vec F S16x64x128 .f32) (xs0 : Vec F S128x64 .f32) (y : S128x64.Idx) :
    ∃ pc ∈ (kernelRun1_B c i arg2 harg2 arg3 harg3 arg4 harg4 arg5 harg5 arg6 harg6 hc0 hc1 x0 x1 xs0).2.1, y ∈ pc.1.set :=
  View.cover_of_tiledL (kernelRun1_B c i arg2 harg2 arg3 harg3 arg4 harg4 arg5 harg5 arg6 harg6 hc0 hc1 x0 x1 xs0).2.1 S128x64.size (by sl_kernel_rfl) y

/-- What case B leaves in the accumulator scratch: its stores read back. -/
def sout1_B_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : ¬cond1_1 i)
    (x0 : Vec F S128x16x64 .f32) (x1 : Vec F S16x64x128 .f32) (xs0 : Vec F S128x64 .f32) : Vec F S128x64 .f32 :=
  VS1_0.read (Elt F) (VS1_0.writes (Elt F) VS1_0.junk (kernelRun1_B c i arg2 harg2 arg3 harg3 arg4 harg4 arg5 harg5 arg6 harg6 hc0 hc1 x0 x1 xs0).2.1)

/-- In case C the one store into the output buffer covers it. -/
theorem cover1_C_2 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) (y : S128x64.Idx) :
    ∃ pc ∈ (kernelRun1_C c i arg2 harg2 arg3 harg3 arg4 harg4 arg5 harg5 arg6 harg6 hc0 hc1 x0 x1 xs0).1, y ∈ pc.1.set :=
  View.cover_of_tiledL (kernelRun1_C c i arg2 harg2 arg3 harg3 arg4 harg4 arg5 harg5 arg6 harg6 hc0 hc1 x0 x1 xs0).1 S128x64.size (by sl_kernel_rfl) y

/-- What case C leaves in the output buffer: its stores read back. -/
def out1_C_2 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) : Vec F S128x64 .f32 :=
  VO1_2.read (Elt F) (VO1_2.writes (Elt F) VO1_2.junk (kernelRun1_C c i arg2 harg2 arg3 harg3 arg4 harg4 arg5 harg5 arg6 harg6 hc0 hc1 x0 x1 xs0).1)

/-- In case C the stores into the accumulator scratch cover it. -/
theorem scover1_C_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) (y : S128x64.Idx) :
    ∃ pc ∈ (kernelRun1_C c i arg2 harg2 arg3 harg3 arg4 harg4 arg5 harg5 arg6 harg6 hc0 hc1 x0 x1 xs0).2.1, y ∈ pc.1.set :=
  View.cover_of_tiledL (kernelRun1_C c i arg2 harg2 arg3 harg3 arg4 harg4 arg5 harg5 arg6 harg6 hc0 hc1 x0 x1 xs0).2.1 S128x64.size (by sl_kernel_rfl) y

/-- What case C leaves in the accumulator scratch: its stores read back. -/
def sout1_C_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) : Vec F S128x64 .f32 :=
  VS1_0.read (Elt F) (VS1_0.writes (Elt F) VS1_0.junk (kernelRun1_C c i arg2 harg2 arg3 harg3 arg4 harg4 arg5 harg5 arg6 harg6 hc0 hc1 x0 x1 xs0).2.1)

section Data

variable (V : (c : Dev nD) → (b : Ref sig .tc) → Buf (Elt F) ((c : Thread nD τ).loc b))

/-- What the output buffer and the accumulator scratch hold after the body at position n (a pair: output, scratch). -/
def outsAt1 (c : Dev nD) : (n : ℕ) → n < cfg1.N → Vec F S128x64 .f32 × Vec F S128x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every scratch at anything; afterwards the
    accumulator scratch at what the point before left in it, the rest at anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ d, owns (c : Thread nD τ) scM1_1 fullShare d)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ d, owns (c : Thread nD τ) scM1_1 fullShare d)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2) ∗ (∃ d, owns (c : Thread nD τ) scM1_1 fullShare d)) ∗ (∃ r, prngReg c r)) := by
  cases n with
  | zero => exact absurd rfl hz
  | succ n => rfl

/-- The proof data of region 1 on core c: the arrays as the region finds them; after the body each input's
    buffer at its block and the output's at its contents after the point; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the column block decides the case; the invariant hands the body the accumulator
    scratch at what the point before left and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨Ho1, Ho2, Ho3, Ho4, Ho5, HS0, HS1⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, HS1⟩
        isplitl [Ho1 Ho2 Ho3 Ho4 Ho5 HS0 HS1 Hg]
        · isplitr [Hg]
          · isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_A_0 c _ _ _ _ _ _ _ _ _ _ _ _ _ _ _)
            iexact HS1
          iexact Hg
        isplitl [Ho]; · iexact Ho
        isplitl [H0]; · iexact H0
        isplitl [H1]; · iexact H1
        iexists _; iexact H2
      ·
        rw [PhiS1_castSucc V c t, PhiS1_pos V c _ _ hz]
        iintro ⟨⟨⟨Ho1, Ho2, Ho3, Ho4, Ho5, HS0, HS1⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        isplitl [HS1]; · iexact HS1
        iintro ⟨H0, H1, H2, ⟨%es0, HS0⟩, HS1⟩
        isplitl [Ho1 Ho2 Ho3 Ho4 Ho5 HS0 HS1 Hg]
        · isplitr [Hg]
          · isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_A_0 c _ _ _ _ _ _ _ _ _ _ _ _ _ _ _)
            iexact HS1
          iexact Hg
        isplitl [Ho]; · iexact Ho
        isplitl [H0]; · iexact H0
        isplitl [H1]; · iexact H1
        iexists _; iexact H2

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      ·
        rw [PhiS1_castSucc V c t, PhiS1_pos V c _ _ hz]
        iintro ⟨⟨⟨Ho1, Ho2, Ho3, Ho4, Ho5, HS0, HS1⟩, Hg⟩, Ho, ⟨%d0, H0⟩, ⟨%d1, H1⟩, ⟨%d2, H2⟩⟩
        iapply ((kernelRun1_C c (grid1.coords t) _ _ _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, HS1⟩
        isplitl [Ho1 Ho2 Ho3 Ho4 Ho5 HS0 HS1 Hg]
        · isplitr [Hg]
          · isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_C_0 c _ _ _ _ _ _ _ _ _ _ _ _ _ _ _ _)
            iexact HS1
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨Ho1, Ho2, Ho3, Ho4, Ho5, HS0, HS1⟩, Hg⟩, Ho, ⟨%d0, H0⟩, ⟨%d1, H1⟩, ⟨%d2, H2⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, HS1⟩
        isplitl [Ho1 Ho2 Ho3 Ho4 Ho5 HS0 HS1 Hg]
        · isplitr [Hg]
          · isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_B_0 c _ _ _ _ _ _ _ _ _ _ _ _ _ _ _ _)
            iexact HS1
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The resting invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ho1, Ho2, Ho3, Ho4, Ho5, HS0, HS1⟩, Hg⟩
  isplitr [Hg]
  · isplitl [Ho1]; · iexact Ho1
    isplitl [Ho2]; · iexact Ho2
    isplitl [Ho3]; · iexact Ho3
    isplitl [Ho4]; · iexact Ho4
    isplitl [Ho5]; · iexact Ho5
    isplitl [HS0]; · iexists _; iexact HS0
    iexact HS1
  iexact Hg

theorem hout1 (c : Dev nD) : (dat1 V c).Φ (Fin.last cfg1.N) ⊢ Pipeline.ΦA spec1 c :=
  Phi_out1 V c _ (by rw [Fin.val_last]; have : cfg1.N = 16 := N_1; omega)

end Data

end Cert.Kernel.Hand

end
-- ==== Proof.K.Run.lean ====
/-
  The run of the kernel program as a list of segments.

  The program is four items in order: the matmul region, a stretch of three host operations (a reshape and two
  transposes), the distance region, and one host operation that joins the first argument and the second region's
  result side by side. Between two items every core holds each of its unscoped buffers whole at known contents:
  the launch memory, then what the first region's write-backs leave in its arrays, then the host stretch applied
  to that, then the second region's write-backs, then the join. The two arguments are written by no item, so
  walking those contents back from the end reaches the launch memory: the program ends with its arguments as
  launched, and every final memory holds, at each unscoped buffer, the last of those contents.
-/
import proofs.«141043_j33517924778715_2_alg».proof.Proof.Gen.Kernel.Regions
import proofs.«141043_j33517924778715_2_alg».proof.Proof.K.R0
import proofs.«141043_j33517924778715_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core c's buffers at launch. -/
abbrev W0 : Dev nD → Valuation τ sig (Elt F) := fun c b => (s₀ m ρ).mem ((c : Dev nD), b)
/-- The same read at the core's own references: what the first region is entered with. -/
abbrev V0 : (c : Dev nD) → (b : Ref sig .tc) → Buf (Elt F) ((c : Thread nD τ).loc b) := fun c b => W0 m ρ c b
/-- After the first region: its arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's own references. -/
abbrev V1 : (c : Dev nD) → (b : Ref sig .tc) → Buf (Elt F) ((c : Thread nD τ).loc b) := fun c b => W1 m ρ c b
/-- At the first region's exit each of its arrays holds what the write-backs leave, and every other buffer what it
    held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the reshape and the two transposes: what the second region is entered with. -/
abbrev W2 : Dev nD → Valuation τ sig (Elt F) := fun c => StableHlo.after hostOps1 (W1 m ρ c)
/-- The same read at the core's own references. -/
abbrev V2 : (c : Dev nD) → (b : Ref sig .tc) → Buf (Elt F) ((c : Thread nD τ).loc b) := fun c b => W2 m ρ c b
/-- After the second region: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's own references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the join: the contents the program ends with. -/
abbrev W4 : Dev nD → Valuation τ sig (Elt F) := fun c => StableHlo.after hostOps2 (W3 m ρ c)

/-! ### The arguments end as launched

No host operation writes an argument; the first region only reads each through an input window; the second region
does not stage either. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The proof data family and what rides beside the buffers -/

/-- Every region's proof data, each at the contents its region is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
/-- A host stretch as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register at
    some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at the launch contents, left at the
    contents after its write-backs. Its arrays are split out of the unscoped buffers and put back at the exit
    contents; the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents after the host
    stretch, left at the contents after its write-backs. Its invariant starts and ends at the resting one. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The program is the run of the segments. -/
theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- From any memory with zero counters every weakly fair execution of the program terminates, nothing faulting,
    and every final memory holds, on every core and at every unscoped buffer, the last contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame claim: the program terminates from any memory with zero counters, and ends with both arguments as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.Kernel.Hand

end
-- ==== Proof.KI.R0.lean ====
import proofs.«141043_j33517924778715_2_alg».proof.Proof.Gen.KernelIdeal.Launch
import proofs.«141043_j33517924778715_2_alg».proof.Proof.Gen.KernelIdeal.Skeleton
import proofs.«141043_j33517924778715_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The matmul region of the kernel program, at any entry contents

The first TensorCore region runs the matmul body on a grid of four points. At point `t` the body
finds row block `t` of the left operand (128 rows of 512) in its first buffer and the whole right
operand (512 by 1024) in its second, and stores their product (128 by 1024, accumulated from zero)
over its third buffer, which is written back to row block `t` of the result.

This file states that, for any contents `V` of the core's buffers when the region is entered: the
blocks the windows read (`iblk0`), what the body leaves in the output buffer as a closed function of
the two input blocks (`out0_2`), the body's triple (`sound_kernel0`), the pipeline's proof data
(`dat0`) and the body obligation (`body_obligation0`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's current staging buffer holds its row block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole operand at every point although it is fetched at the
    first point only: its block index never moves, so an unfetched point still finds the previous point's
    block, which is its own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S128x512 := Rect.unit (s := S128x512) ![0, 0] S128x512.size inb_S128x512_S128x512_0_0
abbrev r0_1 : Rect S512x1024 := Rect.unit (s := S512x1024) ![0, 0] S512x1024.size inb_S512x1024_S512x1024_0_0
abbrev r0_2 : Rect S128x1024 := Rect.unit (s := S128x1024) ![0, 0] S128x1024.size inb_S128x1024_S128x1024_0_0

/-! ## What the body leaves in the output buffer -/

/-- The output buffer after the body, from the two input blocks: its one store, of the product of the two
    loads accumulated from zero, laid over the whole buffer. -/
def out0_2 (x0 : Vec F S128x512 .f32) (x1 : Vec F S512x1024 .f32) : Vec F S128x1024 .f32 :=
  View.canon [⟨r0_2, k0_pay1 (View.ld x0 r0_0) (View.ld x1 r0_1)⟩]

/-- The store covers the buffer. -/
theorem cover0_2 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-! ## The body's triple -/

set_option maxHeartbeats 1000000 in
/-- The body on whole staging memrefs, the two inputs' at read contents `x0`, `x1` and the output's at anything,
    runs to the continuation holding the inputs' as they were and the output's at `out0_2 x0 x1`. The body also
    reads the output buffer before overwriting it; that value is never used, and the store covers the buffer, so
    the prior contents do not matter. -/
theorem sound_kernel0 (c : Dev nD) (E : Set ℕ) (i : grid0.Coords) (arg1 : Memref sig .tc .vmem S128x512 .f32) (harg1 : arg1.IsWhole) (arg2 : Memref sig .tc .vmem S512x1024 .f32) (harg2 : arg2.IsWhole) (arg3 : Memref sig .tc .vmem S128x1024 .f32) (harg3 : arg3.IsWhole)
    (x0 : Vec F S128x512 .f32) (x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t`
    each input's buffer still at its block and the output's at `out0_2` of the two input blocks; the invariant
    holds the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  Pipeline region 1 (the pairwise-distance kernel on the 4 × 4 grid of row blocks and column blocks): what its
  three control cases share. The grid is walked row block by row block, the column block innermost, so point t
  has column block t mod 4. The accumulator scratch is zeroed when the column block is 0 and copied to the
  output block when it is 3; the output window is idle at the other points and written back only at the last
  column block of each row block.
-/
import proofs.«141043_j33517924778715_2_alg».proof.Proof.Gen.KernelIdeal.Launch
import proofs.«141043_j33517924778715_2_alg».proof.Proof.Gen.KernelIdeal.Skeleton
import proofs.«141043_j33517924778715_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's staging buffer holds its block at every point, fetched there or not: between two
    fetches the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the column-block input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions -/

/-- The accumulator is zeroed: the column block is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The accumulator is copied out: the column block is the last one. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- A staging buffer of the output window, through which its contents are stated. -/
abbrev VO1_2 : View sig .tc .vmem S128x64 .f32 := (Memref.whole cc1_stg2_0 : Memref sig .tc .vmem S128x64 .f32).view
abbrev ms1_0 (t : Fin cfg1.N) : Memref sig .tc .vmem S128x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
/-- The accumulator scratch, carried from one column block to the next. -/
abbrev scM1_0 : Memref sig .tc .vmem S128x64 .f32 := Memref.whole cc1_scratch0
/-- The distance scratch, rebuilt from zero at every point. -/
abbrev scM1_1 : Memref sig .tc .vmem S128x64x128 .f32 := Memref.whole cc1_scratch1
abbrev VS1_0 : View sig .tc .vmem S128x64 .f32 := scM1_0.view

/-- The region's resting invariant, conjunct by conjunct: the other region's staging buffers and the two scratch
    buffers, each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand

end
-- ==== Proof.KI.R1RunA.lean ====
/-
  Region 1's body run whole in case A (column block 0: the accumulator is zeroed and added to): on whole staging memrefs holding the two input blocks, the
  body runs to its end leaving the inputs and the output buffer as they were (the case stores nothing into the
  output), the accumulator scratch with the case's stores written into it (the list the run finds), and the
  distance scratch at some contents.
-/
import proofs.«141043_j33517924778715_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : cond1_0 i) (hc1 : ¬cond1_1 i)
    (x0 : Vec F S128x16x64 .f32) (x1 : Vec F S16x64x128 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ d, owns (c : Thread nD τ) arg6 fullShare d)) -∗ K ⟨⟩))
          ⊢ wp frame (wpE (defs₀ (F := F)) Variants.none c none) E (cc1__discrim_kernel i arg2 harg2 arg3 harg3 arg4 harg4 arg5 harg5 arg6 harg6) K } := by
  refine ⟨[], ?_, fun xi2 E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%ds0, %fs0, -, HS0⟩, ⟨%d6, %f6, -, H6⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexists _; isplitr
    swap; · iexact H6
    ipureintro; rfl

end Cert.KernelIdeal.Hand

end
-- ==== Proof.KI.R1RunB.lean ====
/-
  Region 1's body run whole in case B (column blocks 1 and 2: the accumulator is added to): on whole staging memrefs holding the two input blocks, the
  body runs to its end leaving the inputs and the output buffer as they were (the case stores nothing into the
  output), the accumulator scratch with the case's stores written into it (the list the run finds), and the
  distance scratch at some contents.
-/
import proofs.«141043_j33517924778715_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : ¬cond1_1 i)
    (x0 : Vec F S128x16x64 .f32) (x1 : Vec F S16x64x128 .f32) (xs0 : Vec F S128x64 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ d, owns (c : Thread nD τ) arg6 fullShare d)) -∗ K ⟨⟩))
          ⊢ wp frame (wpE (defs₀ (F := F)) Variants.none c none) E (cc1__discrim_kernel i arg2 harg2 arg3 harg3 arg4 harg4 arg5 harg5 arg6 harg6) K } := by
  refine ⟨[], ?_, fun xi2 E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%fs0, %hfs0, HS0⟩, ⟨%d6, %f6, -, H6⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexists _; isplitr
    swap; · iexact H6
    ipureintro; rfl

end Cert.KernelIdeal.Hand

end
-- ==== Proof.KI.R1RunC.lean ====
/-
  Region 1's body run whole in case C (column block 3: the accumulator is added to and copied to the output block): on whole staging memrefs holding the two input blocks, the
  body runs to its end leaving the inputs as they were, the output buffer and the accumulator scratch with the
  stores the case makes written into them (the lists the run finds), and the distance scratch at some contents.
-/
import proofs.«141043_j33517924778715_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ d, owns (c : Thread nD τ) arg6 fullShare d)) -∗ K ⟨⟩))
          ⊢ wp frame (wpE (defs₀ (F := F)) Variants.none c none) E (cc1__discrim_kernel i arg2 harg2 arg3 harg3 arg4 harg4 arg5 harg5 arg6 harg6) K } := by
  refine ⟨?_, ?_, fun E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%d2, %f2, -, H2⟩, ⟨%fs0, %hfs0, HS0⟩, ⟨%d6, %f6, -, H6⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexists _; isplitr
    swap; · iexact H6
    ipureintro; rfl

end Cert.KernelIdeal.Hand

end
-- ==== Proof.KI.R1.lean ====
/-
  Pipeline region 1, the rest of its frame: what the output buffer and the accumulator scratch hold after each
  grid point (by recursion on the point: a point whose column block is 0 starts from zero, every other point
  from what the point before left in the scratch), the region's invariant carrying the scratch at those contents,
  the proof data, and the body's obligation at every point.
-/
import proofs.«141043_j33517924778715_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output buffer: its stores read back (none: a placeholder nothing consults, the window being idle and not written back at these points). -/
def out1_A_2 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : cond1_0 i) (hc1 : ¬cond1_1 i)
    (x0 : Vec F S128x16x64 .f32) (x1 : Vec F S16x64x128 .f32) : Vec F S128x64 .f32 :=
  VO1_2.read (Elt F) (VO1_2.writes (Elt F) VO1_2.junk (kernelRun1_A c i arg2 harg2 arg3 harg3 arg4 harg4 arg5 harg5 arg6 harg6 hc0 hc1 x0 x1).1)

/-- In case A the stores into the accumulator scratch cover it. -/
theorem scover1_A_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : cond1_0 i) (hc1 : ¬cond1_1 i)
    (x0 : Vec F S128x16x64 .f32) (x1 : Vec F S16x64x128 .f32) (y : S128x64.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S128x64.size (by sl_kernel_rfl) y

/-- What case A leaves in the accumulator scratch: its stores read back. -/
def sout1_A_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : cond1_0 i) (hc1 : ¬cond1_1 i)
    (x0 : Vec F S128x16x64 .f32) (x1 : Vec F S16x64x128 .f32) : Vec F S128x64 .f32 :=
  VS1_0.read (Elt F) (VS1_0.writes (Elt F) VS1_0.junk (kernelRun1_A c i arg2 harg2 arg3 harg3 arg4 harg4 arg5 harg5 arg6 harg6 hc0 hc1 x0 x1).2.1)

/-- What case B leaves in the output buffer: its stores read back (none: a placeholder nothing consults, the window being idle and not written back at these points). -/
def out1_B_2 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : ¬cond1_1 i)
    (x0 : Vec F S128x16x64 .f32) (x1 : Vec F S16x64x128 .f32) (xs0 : Vec F S128x64 .f32) : Vec F S128x64 .f32 :=
  VO1_2.read (Elt F) (VO1_2.writes (Elt F) VO1_2.junk (kernelRun1_B c i arg2 harg2 arg3 harg3 arg4 harg4 arg5 harg5 arg6 harg6 hc0 hc1 x0 x1 xs0).1)

/-- In case B the stores into the accumulator scratch cover it. -/
theorem scover1_B_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : ¬cond1_1 i)
    (x0 : Vec F S128x16x64 .f32) (x1 : Vec F S16x64x128 .f32) (xs0 : Vec F S128x64 .f32) (y : S128x64.Idx) :
    ∃ pc ∈ (kernelRun1_B c i arg2 harg2 arg3 harg3 arg4 harg4 arg5 harg5 arg6 harg6 hc0 hc1 x0 x1 xs0).2.1, y ∈ pc.1.set :=
  View.cover_of_tiledL (kernelRun1_B c i arg2 harg2 arg3 harg3 arg4 harg4 arg5 harg5 arg6 harg6 hc0 hc1 x0 x1 xs0).2.1 S128x64.size (by sl_kernel_rfl) y

/-- What case B leaves in the accumulator scratch: its stores read back. -/
def sout1_B_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : ¬cond1_1 i)
    (x0 : Vec F S128x16x64 .f32) (x1 : Vec F S16x64x128 .f32) (xs0 : Vec F S128x64 .f32) : Vec F S128x64 .f32 :=
  VS1_0.read (Elt F) (VS1_0.writes (Elt F) VS1_0.junk (kernelRun1_B c i arg2 harg2 arg3 harg3 arg4 harg4 arg5 harg5 arg6 harg6 hc0 hc1 x0 x1 xs0).2.1)

/-- In case C the one store into the output buffer covers it. -/
theorem cover1_C_2 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) (y : S128x64.Idx) :
    ∃ pc ∈ (kernelRun1_C c i arg2 harg2 arg3 harg3 arg4 harg4 arg5 harg5 arg6 harg6 hc0 hc1 x0 x1 xs0).1, y ∈ pc.1.set :=
  View.cover_of_tiledL (kernelRun1_C c i arg2 harg2 arg3 harg3 arg4 harg4 arg5 harg5 arg6 harg6 hc0 hc1 x0 x1 xs0).1 S128x64.size (by sl_kernel_rfl) y

/-- What case C leaves in the output buffer: its stores read back. -/
def out1_C_2 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) : Vec F S128x64 .f32 :=
  VO1_2.read (Elt F) (VO1_2.writes (Elt F) VO1_2.junk (kernelRun1_C c i arg2 harg2 arg3 harg3 arg4 harg4 arg5 harg5 arg6 harg6 hc0 hc1 x0 x1 xs0).1)

/-- In case C the stores into the accumulator scratch cover it. -/
theorem scover1_C_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) (y : S128x64.Idx) :
    ∃ pc ∈ (kernelRun1_C c i arg2 harg2 arg3 harg3 arg4 harg4 arg5 harg5 arg6 harg6 hc0 hc1 x0 x1 xs0).2.1, y ∈ pc.1.set :=
  View.cover_of_tiledL (kernelRun1_C c i arg2 harg2 arg3 harg3 arg4 harg4 arg5 harg5 arg6 harg6 hc0 hc1 x0 x1 xs0).2.1 S128x64.size (by sl_kernel_rfl) y

/-- What case C leaves in the accumulator scratch: its stores read back. -/
def sout1_C_0 (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) : Vec F S128x64 .f32 :=
  VS1_0.read (Elt F) (VS1_0.writes (Elt F) VS1_0.junk (kernelRun1_C c i arg2 harg2 arg3 harg3 arg4 harg4 arg5 harg5 arg6 harg6 hc0 hc1 x0 x1 xs0).2.1)

section Data

variable (V : (c : Dev nD) → (b : Ref sig .tc) → Buf (Elt F) ((c : Thread nD τ).loc b))

/-- What the output buffer and the accumulator scratch hold after the body at position n (a pair: output, scratch). -/
def outsAt1 (c : Dev nD) : (n : ℕ) → n < cfg1.N → Vec F S128x64 .f32 × Vec F S128x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every scratch at anything; afterwards the
    accumulator scratch at what the point before left in it, the rest at anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ d, owns (c : Thread nD τ) scM1_1 fullShare d)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ d, owns (c : Thread nD τ) scM1_1 fullShare d)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2) ∗ (∃ d, owns (c : Thread nD τ) scM1_1 fullShare d)) ∗ (∃ r, prngReg c r)) := by
  cases n with
  | zero => exact absurd rfl hz
  | succ n => rfl

/-- The proof data of region 1 on core c: the arrays as the region finds them; after the body each input's
    buffer at its block and the output's at its contents after the point; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the column block decides the case; the invariant hands the body the accumulator
    scratch at what the point before left and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨Ho1, Ho2, Ho3, Ho4, Ho5, HS0, HS1⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, HS1⟩
        isplitl [Ho1 Ho2 Ho3 Ho4 Ho5 HS0 HS1 Hg]
        · isplitr [Hg]
          · isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_A_0 c _ _ _ _ _ _ _ _ _ _ _ _ _ _ _)
            iexact HS1
          iexact Hg
        isplitl [Ho]; · iexact Ho
        isplitl [H0]; · iexact H0
        isplitl [H1]; · iexact H1
        iexists _; iexact H2
      ·
        rw [PhiS1_castSucc V c t, PhiS1_pos V c _ _ hz]
        iintro ⟨⟨⟨Ho1, Ho2, Ho3, Ho4, Ho5, HS0, HS1⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        isplitl [HS1]; · iexact HS1
        iintro ⟨H0, H1, H2, ⟨%es0, HS0⟩, HS1⟩
        isplitl [Ho1 Ho2 Ho3 Ho4 Ho5 HS0 HS1 Hg]
        · isplitr [Hg]
          · isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_A_0 c _ _ _ _ _ _ _ _ _ _ _ _ _ _ _)
            iexact HS1
          iexact Hg
        isplitl [Ho]; · iexact Ho
        isplitl [H0]; · iexact H0
        isplitl [H1]; · iexact H1
        iexists _; iexact H2

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      ·
        rw [PhiS1_castSucc V c t, PhiS1_pos V c _ _ hz]
        iintro ⟨⟨⟨Ho1, Ho2, Ho3, Ho4, Ho5, HS0, HS1⟩, Hg⟩, Ho, ⟨%d0, H0⟩, ⟨%d1, H1⟩, ⟨%d2, H2⟩⟩
        iapply ((kernelRun1_C c (grid1.coords t) _ _ _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, HS1⟩
        isplitl [Ho1 Ho2 Ho3 Ho4 Ho5 HS0 HS1 Hg]
        · isplitr [Hg]
          · isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_C_0 c _ _ _ _ _ _ _ _ _ _ _ _ _ _ _ _)
            iexact HS1
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨Ho1, Ho2, Ho3, Ho4, Ho5, HS0, HS1⟩, Hg⟩, Ho, ⟨%d0, H0⟩, ⟨%d1, H1⟩, ⟨%d2, H2⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, HS1⟩
        isplitl [Ho1 Ho2 Ho3 Ho4 Ho5 HS0 HS1 Hg]
        · isplitr [Hg]
          · isplitl [Ho1]; · iexact Ho1
            isplitl [Ho2]; · iexact Ho2
            isplitl [Ho3]; · iexact Ho3
            isplitl [Ho4]; · iexact Ho4
            isplitl [Ho5]; · iexact Ho5
            isplitl [HS0]
            · unfold owns; iexists _; isplitr
              swap; · iexact HS0
              ipureintro; exact View.read_writes_of_cover _ _ _ _ _ (scover1_B_0 c _ _ _ _ _ _ _ _ _ _ _ _ _ _ _ _)
            iexact HS1
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The resting invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ho1, Ho2, Ho3, Ho4, Ho5, HS0, HS1⟩, Hg⟩
  isplitr [Hg]
  · isplitl [Ho1]; · iexact Ho1
    isplitl [Ho2]; · iexact Ho2
    isplitl [Ho3]; · iexact Ho3
    isplitl [Ho4]; · iexact Ho4
    isplitl [Ho5]; · iexact Ho5
    isplitl [HS0]; · iexists _; iexact HS0
    iexact HS1
  iexact Hg

theorem hout1 (c : Dev nD) : (dat1 V c).Φ (Fin.last cfg1.N) ⊢ Pipeline.ΦA spec1 c :=
  Phi_out1 V c _ (by rw [Fin.val_last]; have : cfg1.N = 16 := N_1; omega)

end Data

end Cert.KernelIdeal.Hand

end
-- ==== Proof.KI.Run.lean ====
/-
  The run of the kernel program as a list of segments.

  The program is four items in order: the matmul region, a stretch of three host operations (a reshape and two
  transposes), the distance region, and one host operation that joins the first argument and the second region's
  result side by side. Between two items every core holds each of its unscoped buffers whole at known contents:
  the launch memory, then what the first region's write-backs leave in its arrays, then the host stretch applied
  to that, then the second region's write-backs, then the join. The two arguments are written by no item, so
  walking those contents back from the end reaches the launch memory: the program ends with its arguments as
  launched, and every final memory holds, at each unscoped buffer, the last of those contents.
-/
import proofs.«141043_j33517924778715_2_alg».proof.Proof.Gen.KernelIdeal.Regions
import proofs.«141043_j33517924778715_2_alg».proof.Proof.KI.R0
import proofs.«141043_j33517924778715_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core c's buffers at launch. -/
abbrev W0 : Dev nD → Valuation τ sig (Elt F) := fun c b => (s₀ m ρ).mem ((c : Dev nD), b)
/-- The same read at the core's own references: what the first region is entered with. -/
abbrev V0 : (c : Dev nD) → (b : Ref sig .tc) → Buf (Elt F) ((c : Thread nD τ).loc b) := fun c b => W0 m ρ c b
/-- After the first region: its arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's own references. -/
abbrev V1 : (c : Dev nD) → (b : Ref sig .tc) → Buf (Elt F) ((c : Thread nD τ).loc b) := fun c b => W1 m ρ c b
/-- At the first region's exit each of its arrays holds what the write-backs leave, and every other buffer what it
    held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the reshape and the two transposes: what the second region is entered with. -/
abbrev W2 : Dev nD → Valuation τ sig (Elt F) := fun c => StableHlo.after hostOps1 (W1 m ρ c)
/-- The same read at the core's own references. -/
abbrev V2 : (c : Dev nD) → (b : Ref sig .tc) → Buf (Elt F) ((c : Thread nD τ).loc b) := fun c b => W2 m ρ c b
/-- After the second region: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's own references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the join: the contents the program ends with. -/
abbrev W4 : Dev nD → Valuation τ sig (Elt F) := fun c => StableHlo.after hostOps2 (W3 m ρ c)

/-! ### The arguments end as launched

No host operation writes an argument; the first region only reads each through an input window; the second region
does not stage either. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The proof data family and what rides beside the buffers -/

/-- Every region's proof data, each at the contents its region is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
/-- A host stretch as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register at
    some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at the launch contents, left at the
    contents after its write-backs. Its arrays are split out of the unscoped buffers and put back at the exit
    contents; the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents after the host
    stretch, left at the contents after its write-backs. Its invariant starts and ends at the resting one. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The program is the run of the segments. -/
theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- From any memory with zero counters every weakly fair execution of the program terminates, nothing faulting,
    and every final memory holds, on every core and at every unscoped buffer, the last contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame claim: the program terminates from any memory with zero counters, and ends with both arguments as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.Spec.lean ====
/-
  The function both programs compute, written once over the extended reals.

  Inputs: a matrix x of 512 rows and 512 columns and a matrix T of 512 rows and 1024 columns. Their product
  P = x · T has 512 rows and 1024 columns; column n = 16 · o + k of P is read as entry (o, k) of a 64 × 16
  block, so that every row i of P is a family M(i, o, k) of 64 vectors of length 16.
  For two rows i, j and a feature o the L1 distance is  d(i, j, o) = Σ_k |M(i, o, k) − M(j, o, k)|,
  and the result is  ob(i, o) = Σ_j exp(−d(i, j, o)) · [i ≠ j]:  each row's similarity to every OTHER row.
  The absolute value of an extended real a is max a (−a); the indicator [i ≠ j] is 1 off the diagonal and 0 on it.
  No finiteness is assumed anywhere: the two programs differ only in how the sum over j is grouped
  (four blocks of 128 accumulated one after the other, against one sum over 512) and in how the indicator is spelt.
-/
import Idealize.ShloMosaic.PureOps.Ideal
import Idealize.ShloMosaic.Lib.ValueIdx

noncomputable section

namespace Cert.Spec

open Idealize.ShloMosaic Idealize.ShloMosaic.ValueIdx

/-- Entry (i, n) of the product x · T: the sum over the 512 columns c of x(i, c) · T(c, n). -/
def prod (x : (⟨2, ![512, 512]⟩ : Shape).Idx → EReal) (T : (⟨2, ![512, 1024]⟩ : Shape).Idx → EReal)
    (i : Fin 512) (n : Fin 1024) : EReal :=
  ∑ c : Fin 512, x (ix2 i c) * T (ix2 c n)

/-- The column 16 · o + k of a row of 1024, for a feature o < 64 and a position k < 16 inside it. -/
def col (o : Fin 64) (k : Fin 16) : Fin 1024 := ⟨o.val * 16 + k.val, by have := o.isLt; have := k.isLt; omega⟩

/-- The L1 distance between rows i and j of M at feature o: the sum over k of |M(i,o,k) − M(j,o,k)|,
    the absolute value of an extended real a being max a (−a). -/
def dist (M : Fin 512 → Fin 64 → Fin 16 → EReal) (i j : Fin 512) (o : Fin 64) : EReal :=
  ∑ k : Fin 16, max (M i o k - M j o k) (-(M i o k - M j o k))

/-- The indicator of i ≠ j as an extended real: 0 on the diagonal, 1 off it. -/
def offDiag (i j : Fin 512) : EReal := if i = j then 0 else 1

/-- One summand: row j's contribution to row i at feature o. -/
def term (M : Fin 512 → Fin 64 → Fin 16 → EReal) (i : Fin 512) (o : Fin 64) (j : Fin 512) : EReal :=
  Ideal.exp (-(dist M i j o)) * offDiag i j

/-- The result block: ob(i, o) = Σ_j exp(−d(i,j,o)) · [i ≠ j]. -/
def ob (M : Fin 512 → Fin 64 → Fin 16 → EReal) (i : Fin 512) (o : Fin 64) : EReal :=
  ∑ j : Fin 512, term M i o j

/-- The family M the two programs feed to ob: M(i, o, k) = (x · T)(i, 16 · o + k). -/
def fam (x : (⟨2, ![512, 512]⟩ : Shape).Idx → EReal) (T : (⟨2, ![512, 1024]⟩ : Shape).Idx → EReal) :
    Fin 512 → Fin 64 → Fin 16 → EReal :=
  fun i o k => prod x T i (col o k)

end Cert.Spec

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.KI.R0Value.lean ====
import proofs.«141043_j33517924778715_2_alg».proof.Proof.KI.R0
import proofs.«141043_j33517924778715_2_alg».proof.Proof.Spec
import proofs.«141043_j33517924778715_2_alg».proof.Proof.LibPlainMatmul
import Idealize.ShloMosaic.Lib.Pipeline.Value
import Idealize.ShloMosaic.Lib.ValueIdx
import Idealize.ShloMosaic.PureOps.Ideal.Laws

/-!
# The matmul region's result, entry by entry

After the four points of the first region the result array holds the product of the two operands:
point `t` multiplies rows `128 t … 128 t + 127` of the left operand by the whole right operand and writes
the 128 by 1024 block back to the same rows of the result; the four row blocks tile the array, and row `r`
lies in the block of point `r / 128`. Entry `(i, n)` of what the region leaves is therefore
`Σ_c x(i, c) · T(c, n)`, the contraction read on the extended reals, where the zero accumulator adds nothing.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The product of the two operands as one array: entry `i` is `Spec.prod` at `i`'s two coordinates. -/
def prodArr (X : S512x512.Idx → EReal) (W : S512x1024.Idx → EReal) : S512x1024.Idx → EReal :=
  fun i => Cert.Spec.prod X W ⟨(i 0).val, (i 0).isLt⟩ ⟨(i 1).val, (i 1).isLt⟩

/-- The body's payload at an entry: the product of a 128 by 512 block and a 512 by 1024 block accumulated
    into zero is, at `(a, b)`, the sum over the contracted coordinate of the products of the entries. -/
theorem pay_apply (x0 : Vec Ideal S128x512 .f32) (x1 : Vec Ideal S512x1024 .f32) (a : Fin 128) (b : Fin 1024) :
    k0_pay1 (F := Ideal) x0 x1 (ix2 a b) = ∑ k : Fin 512, x0 (ix2 a k) * x1 (ix2 k b) := by
  unfold k0_pay1
  exact Cert.LibPlainMatmul.matmul_plain_zero_apply none x0 x1 a b

/-- The windows' block indices over the grid: the left operand and the result move one row block per
    point, the right operand never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `128 t …` of the operand. -/
theorem iblk0_0_apply (c : Dev nD) (t : Fin cfg0.N) (a : Fin 128) (k : Fin 512) (i : Fin 512)
    (hi : i.val = t.val * 128 + a.val) :
    (iblk0 V c 0 t : Vec Ideal S128x512 .f32) (ix2 a k) = (V c main_arg0 : S512x512.Idx → EReal) (ix2 i k) := by
  obtain ⟨e0, e1, -, -, -, -⟩ := idx_facts0 t
  unfold iblk0
  rw [View.read_apply]
  show V c main_arg0 _ = V c main_arg0 _
  congr 1
  funext d
  apply Fin.ext
  match d with
  | ⟨0, _⟩ => show win0_0.index t (0 : Fin 2) * 128 + 1 * a.val = i.val; omega
  | ⟨1, _⟩ => show win0_0.index t (1 : Fin 2) * 512 + 1 * k.val = k.val; omega

/-- The right operand's block at any point is the whole operand. -/
theorem iblk0_1_apply (c : Dev nD) (t : Fin cfg0.N) (k : Fin 512) (b : Fin 1024) (n : Fin 1024) (hn : n.val = b.val) :
    (iblk0 V c 1 t : Vec Ideal S512x1024 .f32) (ix2 k b) = (V c main_arg1 : S512x1024.Idx → EReal) (ix2 k n) := by
  obtain ⟨-, -, e2, e3, -, -⟩ := idx_facts0 t
  unfold iblk0
  rw [View.read_apply]
  show V c main_arg1 _ = V c main_arg1 _
  congr 1
  funext d
  apply Fin.ext
  match d with
  | ⟨0, _⟩ => show win0_1.index t (0 : Fin 2) * 512 + 1 * k.val = k.val; omega
  | ⟨1, _⟩ => show win0_1.index t (1 : Fin 2) * 1024 + 1 * b.val = n.val; omega

/-- What point `t` writes back is block `t` of the product of the two operands as the region finds them. -/
theorem flushed0_eq (c : Dev nD) (t : Fin cfg0.N) :
    (dat0 V c).flushed 2 t = ((cfg0.win 2).blk t).view.read (Elt Ideal) (prodArr (V c main_arg0) (V c main_arg1)) := by
  show (cfg0.win 2).cut (grid0.coords t) ((dat0 V c).after 2 t) = _
  rw [after0_2]
  unfold out0_2
  rw [View.canon_unit_zero zero_offsets]
  simp only [View.ld_unit_zero (S := S128x512) zero_offsets, View.ld_unit_zero (S := S512x1024) zero_offsets]
  obtain ⟨-, -, -, -, e4, e5⟩ := idx_facts0 t
  funext j
  obtain ⟨a, b, rfl⟩ : ∃ (a : Fin 128) (b : Fin 1024), j = ix2 a b := ⟨j 0, j 1, eq_ix2 j⟩
  show k0_pay1 (F := Ideal) (iblk0 V c 0 t) (iblk0 V c 1 t) (ix2 a b)
    = prodArr (V c main_arg0) (V c main_arg1) (((cfg0.win 2).blk t).view.emb (ix2 a b))
  refine (pay_apply _ _ a b).trans ?_
  have hrow : ((((cfg0.win 2).blk t).view.emb (ix2 a b)) 0).val = t.val * 128 + a.val := by
    show win0_2.index t (0 : Fin 2) * 128 + 1 * a.val = _
    omega
  have hcol : ((((cfg0.win 2).blk t).view.emb (ix2 a b)) 1).val = b.val := by
    show win0_2.index t (1 : Fin 2) * 1024 + 1 * b.val = _
    omega
  unfold prodArr Cert.Spec.prod
  refine Finset.sum_congr rfl fun k _ => ?_
  rw [iblk0_0_apply V c t a k ⟨_, ((((cfg0.win 2).blk t).view.emb (ix2 a b)) 0).isLt⟩ hrow,
    iblk0_1_apply V c t k b ⟨_, ((((cfg0.win 2).blk t).view.emb (ix2 a b)) 1).isLt⟩ hcol]

/-- An index of the result is in point `t`'s block iff each coordinate is in the block's range on its axis. -/
theorem mem_blk0 (t : Fin cfg0.N) (i : S512x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v0).slice (win0_2.rect t)).set ↔ _
  rw [View.set_slice_whole, Rect.mem_set_unit]
  exact Iff.rfl

/-- The four row blocks cover the result: row `r` lies in the block of point `r / 128`. -/
theorem cover0 (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  have hN : cfg0.N = 4 := N_0
  have hlt : (i 0).val / 128 < cfg0.N := lt_of_lt_of_eq (by omega : (i 0).val / 128 < 4) hN.symm
  refine ⟨⟨(i 0).val / 128, hlt⟩, flush0_2 _, ?_⟩
  rw [mem_blk0]
  obtain ⟨-, -, -, -, e4, e5⟩ := idx_facts0 ⟨(i 0).val / 128, hlt⟩
  intro a
  match a with
  | ⟨0, _⟩ =>
    show win0_2.index ⟨(i 0).val / 128, hlt⟩ (0 : Fin 2) * 128 ≤ (i 0).val ∧ (i 0).val < win0_2.index ⟨(i 0).val / 128, hlt⟩ (0 : Fin 2) * 128 + 128
    rw [e4]
    show (i 0).val / 128 * 128 ≤ (i 0).val ∧ (i 0).val < (i 0).val / 128 * 128 + 128
    omega
  | ⟨1, _⟩ =>
    show win0_2.index ⟨(i 0).val / 128, hlt⟩ (1 : Fin 2) * 1024 ≤ (i 1).val ∧ (i 1).val < win0_2.index ⟨(i 0).val / 128, hlt⟩ (1 : Fin 2) * 1024 + 1024
    rw [e5]
    omega

/-- The result array after the region is the product of the two operands as the region finds them. -/
theorem final0 (c : Dev nD) : (dat0 V c).arrAt 2 cfg0.N = prodArr (V c main_arg0) (V c main_arg1) :=
  (dat0 V c).arrAt_eq_of_cover 2 (prodArr (V c main_arg0) (V c main_arg1)) (fun t _ => flushed0_eq V c t) cover0

/-- Entry `(i, n)` of the result after the region: `Σ_c x(i, c) · T(c, n)`. -/
theorem final0_apply (c : Dev nD) (i : Fin 512) (n : Fin 1024) :
    (dat0 (F := Ideal) V c).arrAt 2 cfg0.N (ValueIdx.ix2 i n) = Cert.Spec.prod (V c main_arg0) (V c main_arg1) i n := by
  rw [final0 V c]
  rfl

end Cert.KernelIdeal.Hand

end
-- ==== Proof.KI.HostStages.lean ====
import proofs.«141043_j33517924778715_2_alg».proof.Proof.Gen.KernelIdeal.Launch
import proofs.«141043_j33517924778715_2_alg».proof.Proof.Gen.KernelIdeal.Regions
import proofs.«141043_j33517924778715_2_alg».proof.Proof.Spec
import Idealize.ShloMosaic.Lib.StableHlo.Run
import Idealize.ShloMosaic.Lib.Pipeline.Value
import Idealize.ShloMosaic.Lib.ValueIdx

/-!
# The host operations between and after the two regions, read at an index

Between the regions the product `P` (512 by 1024) is regrouped: a reshape reads column `16 o + k` of a row as
entry `(o, k)` of a 64 by 16 block; a first transposition swaps the last two axes, giving `(i, k, o)`; a second
moves the row axis last, giving `(k, o, j)`. None of the three computes anything: each entry of the results is an
entry of `P`, namely `P(i, 16 o + k)` and `P(j, 16 o + k)`. After the second region one concatenation joins the
input with the region's result along the columns. All of it is stated over an arbitrary valuation of the buffers
before the operations, and every buffer the operations do not write keeps its contents.
-/

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

/-- The regrouped product as a term: the reshape of the product's buffer. -/
theorem term_v1 (W : Valuation τ sig (Elt Ideal)) :
    (StableHlo.after (hostOps1 (F := Ideal)) W (Proc.devRef .tc main_v1) : S512x64x16.Idx → EReal)
      = shapeCast S512x64x16 (W (Proc.devRef .tc main_v0) : S512x1024.Idx → EReal) shapeCasts_S512x1024_S512x64x16 := by
  dsimp only [hostOps1]; after_results; rfl

/-- The first transposition as a term over the product's buffer. -/
theorem term_v2 (W : Valuation τ sig (Elt Ideal)) :
    (StableHlo.after (hostOps1 (F := Ideal)) W (Proc.devRef .tc main_v2) : S512x16x64.Idx → EReal)
      = transpose S512x16x64 [0, 2, 1]
          (shapeCast S512x64x16 (W (Proc.devRef .tc main_v0) : S512x1024.Idx → EReal) shapeCasts_S512x1024_S512x64x16)
          transposes_S512x64x16_S512x16x64_0_2_1 := by
  dsimp only [hostOps1]; after_results; rfl

/-- The second transposition as a term over the product's buffer. -/
theorem term_v3 (W : Valuation τ sig (Elt Ideal)) :
    (StableHlo.after (hostOps1 (F := Ideal)) W (Proc.devRef .tc main_v3) : S16x64x512.Idx → EReal)
      = transpose S16x64x512 [1, 2, 0]
          (transpose S512x16x64 [0, 2, 1]
            (shapeCast S512x64x16 (W (Proc.devRef .tc main_v0) : S512x1024.Idx → EReal) shapeCasts_S512x1024_S512x64x16)
            transposes_S512x64x16_S512x16x64_0_2_1)
          transposes_S512x16x64_S16x64x512_1_2_0 := by
  dsimp only [hostOps1]; after_results; rfl

/-- Entry `(i, o, k)` of the reshape of a 512 by 1024 array is its entry `(i, 16 o + k)`: both sit at row-major
    position `1024 i + 16 o + k`. -/
theorem reshape_apply (x : S512x1024.Idx → EReal) (i : Fin 512) (o : Fin 64) (k : Fin 16) :
    shapeCast S512x64x16 x shapeCasts_S512x1024_S512x64x16 (ix3 i o k) = x (ix2 i (Cert.Spec.col o k)) :=
  shapeCast_apply x shapeCasts_S512x1024_S512x64x16 (ix3 i o k) (ix2 i (Cert.Spec.col o k)) (by
    rw [Shape.rowMajor_val_two, Shape.rowMajor_val_three]
    have hi : i.val < 512 := i.isLt
    have ho : o.val < 64 := o.isLt
    have hk : k.val < 16 := k.isLt
    show i.val * 1024 + (o.val * 16 + k.val) = (i.val * 64 + o.val) * 16 + k.val
    omega)

/-- Swapping the last two axes: entry `(i, k, o)` of the result is entry `(i, o, k)` of the operand. -/
theorem swap_apply (y : S512x64x16.Idx → EReal) (i : Fin 512) (k : Fin 16) (o : Fin 64) :
    transpose S512x16x64 [0, 2, 1] y transposes_S512x64x16_S512x16x64_0_2_1 (ix3 i k o) = y (ix3 i o k) :=
  transpose_apply [0, 2, 1] y transposes_S512x64x16_S512x16x64_0_2_1 (ix3 i k o) (ix3 i o k) (fun b => by
    match b with
    | ⟨0, _⟩ => rfl
    | ⟨1, _⟩ => rfl
    | ⟨2, _⟩ => rfl)

/-- Moving the first axis last: entry `(k, o, j)` of the result is entry `(j, k, o)` of the operand. -/
theorem rotate_apply (z : S512x16x64.Idx → EReal) (k : Fin 16) (o : Fin 64) (j : Fin 512) :
    transpose S16x64x512 [1, 2, 0] z transposes_S512x16x64_S16x64x512_1_2_0 (ix3 k o j) = z (ix3 j k o) :=
  transpose_apply [1, 2, 0] z transposes_S512x16x64_S16x64x512_1_2_0 (ix3 k o j) (ix3 j k o) (fun b => by
    match b with
    | ⟨0, _⟩ => rfl
    | ⟨1, _⟩ => rfl
    | ⟨2, _⟩ => rfl)

theorem stage_v2 (W : Valuation τ sig (Elt Ideal)) (i : Fin 512) (k : Fin 16) (o : Fin 64) :
    (StableHlo.after (hostOps1 (F := Ideal)) W (Proc.devRef .tc main_v2) : S512x16x64.Idx → EReal) (ValueIdx.ix3 i k o)
      = (W (Proc.devRef .tc main_v0) : S512x1024.Idx → EReal) (ValueIdx.ix2 i (Cert.Spec.col o k)) := by
  rw [term_v2, swap_apply, reshape_apply]

theorem stage_v3 (W : Valuation τ sig (Elt Ideal)) (k : Fin 16) (o : Fin 64) (j : Fin 512) :
    (StableHlo.after (hostOps1 (F := Ideal)) W (Proc.devRef .tc main_v3) : S16x64x512.Idx → EReal) (ValueIdx.ix3 k o j)
      = (W (Proc.devRef .tc main_v0) : S512x1024.Idx → EReal) (ValueIdx.ix2 j (Cert.Spec.col o k)) := by
  rw [term_v3, rotate_apply, swap_apply, reshape_apply]

theorem stage_v5 (W : Valuation τ sig (Elt Ideal)) :
    (StableHlo.after (hostOps2 (F := Ideal)) W (Proc.devRef .tc main_v5) : S512x576.Idx → EReal)
      = concatenate S512x576 1 [⟨S512x512, (W (Proc.devRef .tc main_arg0) : S512x512.Idx → EReal)⟩, ⟨S512x64, (W (Proc.devRef .tc main_v4) : S512x64.Idx → EReal)⟩] concatenates_S512x512_S512x64_S512x576_d1 := by
  dsimp only [hostOps2]; after_results

/-- The three regrouping operations write only their own results. -/
theorem stage_keep1 (W : Valuation τ sig (Elt Ideal)) (b : Ref sig .tc) (hb : b ∉ ([main_v1, main_v2, main_v3] : List (Ref sig .tc))) :
    StableHlo.after (hostOps1 (F := Ideal)) W (Proc.devRef .tc b) = W (Proc.devRef .tc b) :=
  StableHlo.after_of_writes_sub hostOps1 _ hostOps1_writes hb

/-- The concatenation writes only its own result. -/
theorem stage_keep2 (W : Valuation τ sig (Elt Ideal)) (b : Ref sig .tc) (hb : b ∉ ([main_v5] : List (Ref sig .tc))) :
    StableHlo.after (hostOps2 (F := Ideal)) W (Proc.devRef .tc b) = W (Proc.devRef .tc b) :=
  StableHlo.after_of_writes_sub hostOps2 _ hostOps2_writes hb

end Cert.KernelIdeal.Hand

end
-- ==== Proof.KI.R1Blocks.lean ====
import proofs.«141043_j33517924778715_2_alg».proof.Proof.KI.R1
import Idealize.ShloMosaic.Lib.Pipeline.Value
import Idealize.ShloMosaic.Lib.ValueIdx

/-!
# The second region's input blocks as entries of its arrays

The second region walks a 4 by 4 grid, the column block innermost: point `t` has row block `t / 4` and column
block `t mod 4`. Its first input is cut into four blocks of 128 rows, its second into four blocks of 128
columns on the last axis, and its output into four blocks of 128 rows. So entry `(a, k, o)` of the first
input's block at point `t` is entry `(128 (t / 4) + a, k, o)` of the array, and entry `(k, o, l)` of the
second's is entry `(k, o, 128 (t mod 4) + l)`.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The row block of point `t`. -/
theorem coords1_row (t : Fin cfg1.N) : ((grid1.coords t) 0).val = t.val / 4 :=
  (by decide +kernel : ∀ t : Fin grid1.N, ((grid1.coords t) 0).val = t.val / 4) t

/-- The column block of point `t`. -/
theorem coords1_col (t : Fin cfg1.N) : ((grid1.coords t) 1).val = t.val % 4 :=
  (by decide +kernel : ∀ t : Fin grid1.N, ((grid1.coords t) 1).val = t.val % 4) t

/-- The windows' block indices over the grid: the first input and the output move with the row block, the
    second input with the column block, on its last axis. -/
theorem idx_facts1 : ∀ t : Fin cfg1.N,
    win1_0.index t (0 : Fin 3) = t.val / 4 ∧ win1_0.index t (1 : Fin 3) = 0 ∧ win1_0.index t (2 : Fin 3) = 0
    ∧ win1_1.index t (0 : Fin 3) = 0 ∧ win1_1.index t (1 : Fin 3) = 0 ∧ win1_1.index t (2 : Fin 3) = t.val % 4
    ∧ win1_2.index t (0 : Fin 2) = t.val / 4 ∧ win1_2.index t (1 : Fin 2) = 0 :=
  (by decide +kernel : ∀ t : Fin grid1.N, _)

/-- A row of a row block is a row of the array. -/
theorem row_lt1 (t : Fin cfg1.N) (a : Fin 128) : t.val / 4 * 128 + a.val < 512 := by
  have ht : t.val < cfg1.N := t.isLt
  have hN : cfg1.N = 16 := N_1
  have ha : a.val < 128 := a.isLt
  omega

/-- A column of a column block is a column of the array. -/
theorem col_lt1 (t : Fin cfg1.N) (l : Fin 128) : t.val % 4 * 128 + l.val < 512 := by
  have hl : l.val < 128 := l.isLt
  omega

variable (V : (c : Dev nD) → (b : Ref sig .tc) → Buf (Elt Ideal) ((c : Thread nD τ).loc b))

/-- The first input's block at point `t` is rows `128 (t / 4) …` of its array. -/
theorem iblk1_0_apply (c : Dev nD) (t : Fin cfg1.N) (a : Fin 128) (k : Fin 16) (o : Fin 64) :
    (iblk1 (F := Ideal) V c 0 t : S128x16x64.Idx → EReal) (ix3 a k o)
      = (V c main_v2 : S512x16x64.Idx → EReal) (ix3 ⟨t.val / 4 * 128 + a.val, row_lt1 t a⟩ k o) := by
  obtain ⟨e0, e1, e2, -, -, -, -, -⟩ := idx_facts1 t
  unfold iblk1
  rw [View.read_apply]
  show V c main_v2 _ = V c main_v2 _
  congr 1
  funext d
  apply Fin.ext
  match d with
  | ⟨0, _⟩ => show win1_0.index t (0 : Fin 3) * 128 + 1 * a.val = t.val / 4 * 128 + a.val; omega
  | ⟨1, _⟩ => show win1_0.index t (1 : Fin 3) * 16 + 1 * k.val = k.val; omega
  | ⟨2, _⟩ => show win1_0.index t (2 : Fin 3) * 64 + 1 * o.val = o.val; omega

/-- The second input's block at point `t` is columns `128 (t mod 4) …` of its array, on the last axis. -/
theorem iblk1_1_apply (c : Dev nD) (t : Fin cfg1.N) (k : Fin 16) (o : Fin 64) (l : Fin 128) :
    (iblk1 (F := Ideal) V c 1 t : S16x64x128.Idx → EReal) (ix3 k o l)
      = (V c main_v3 : S16x64x512.Idx → EReal) (ix3 k o ⟨t.val % 4 * 128 + l.val, col_lt1 t l⟩) := by
  obtain ⟨-, -, -, e3, e4, e5, -, -⟩ := idx_facts1 t
  unfold iblk1
  rw [View.read_apply]
  show V c main_v3 _ = V c main_v3 _
  congr 1
  funext d
  apply Fin.ext
  match d with
  | ⟨0, _⟩ => show win1_1.index t (0 : Fin 3) * 16 + 1 * k.val = k.val; omega
  | ⟨1, _⟩ => show win1_1.index t (1 : Fin 3) * 64 + 1 * o.val = o.val; omega
  | ⟨2, _⟩ => show win1_1.index t (2 : Fin 3) * 128 + 1 * l.val = t.val % 4 * 128 + l.val; omega

end Cert.KernelIdeal.Hand

end
-- ==== Proof.KI.R1Defs.lean ====
/-
  The data flow of one grid point of the pairwise-distance kernel body, as one term over its two input blocks.

  At one grid point the body holds a block x0 of 128 rows (each a family of 16 positions × 64 features) and a block x1 of
  128 other rows laid out position-major (16 × 64 × 128). It zeroes a scratch of shape 128 × 64 × 128, then for each of
  the sixteen positions k adds |x0(a, k, o) − x1(k, o, l)| to the scratch at (a, o, l). It then takes exp of the negated
  scratch, multiplies by the indicator that the two global row numbers differ, sums over the 128 rows l of the second
  block, and adds the result to the running accumulator. `l1Chain` is the scratch after the sixteen steps and `accNext`
  the accumulator's new value, for every float instance.
-/
import proofs.«141043_j33517924778715_2_alg».proof.Proof.Gen.KernelIdeal.Skeleton
import proofs.«141043_j33517924778715_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The data flow, for every float instance -/

section DataFlow
variable {F : FTy → Type} [FloatOps F]

/-- The scratch after the sixteen accumulation steps: zero, then step k = 0, 1, …, 15 in order, each step reading
    position k of both blocks and the scratch the step before left. -/
def l1Chain (x0 : Vec F S128x16x64 .f32) (x1 : Vec F S16x64x128 .f32) : FVec F S128x64x128 .f32 :=
  k1_pay25 (View.ld x0 (Rect.unit (s := S128x16x64) ![0, 15, 0] S128x1x64.size inb_S128x16x64_S128x1x64_0_15_0)) (View.ld x1 (Rect.unit (s := S16x64x128) ![15, 0, 0] S1x64x128.size inb_S16x64x128_S1x64x128_15_0_0))
  (k1_pay24 (k1_pay22 (View.ld x1 (Rect.unit (s := S16x64x128) ![14, 0, 0] S1x64x128.size inb_S16x64x128_S1x64x128_14_0_0))) (k1_pay23 (View.ld x0 (Rect.unit (s := S128x16x64) ![0, 14, 0] S128x1x64.size inb_S128x16x64_S128x1x64_0_14_0)))
  (k1_pay21 (View.ld x0 (Rect.unit (s := S128x16x64) ![0, 13, 0] S128x1x64.size inb_S128x16x64_S128x1x64_0_13_0)) (View.ld x1 (Rect.unit (s := S16x64x128) ![13, 0, 0] S1x64x128.size inb_S16x64x128_S1x64x128_13_0_0))
  (k1_pay20 (k1_pay19 (View.ld x0 (Rect.unit (s := S128x16x64) ![0, 12, 0] S128x1x64.size inb_S128x16x64_S128x1x64_0_12_0))) (View.ld x1 (Rect.unit (s := S16x64x128) ![12, 0, 0] S1x64x128.size inb_S16x64x128_S1x64x128_12_0_0))
  (k1_pay18 (View.ld x0 (Rect.unit (s := S128x16x64) ![0, 11, 0] S128x1x64.size inb_S128x16x64_S128x1x64_0_11_0)) (View.ld x1 (Rect.unit (s := S16x64x128) ![11, 0, 0] S1x64x128.size inb_S16x64x128_S1x64x128_11_0_0))
  (k1_pay17 (View.ld x0 (Rect.unit (s := S128x16x64) ![0, 10, 0] S128x1x64.size inb_S128x16x64_S128x1x64_0_10_0)) (View.ld x1 (Rect.unit (s := S16x64x128) ![10, 0, 0] S1x64x128.size inb_S16x64x128_S1x64x128_10_0_0))
  (k1_pay16 (View.ld x0 (Rect.unit (s := S128x16x64) ![0, 9, 0] S128x1x64.size inb_S128x16x64_S128x1x64_0_9_0)) (View.ld x1 (Rect.unit (s := S16x64x128) ![9, 0, 0] S1x64x128.size inb_S16x64x128_S1x64x128_9_0_0))
  (k1_pay15 (View.ld x0 (Rect.unit (s := S128x16x64) ![0, 8, 0] S128x1x64.size inb_S128x16x64_S128x1x64_0_8_0)) (View.ld x1 (Rect.unit (s := S16x64x128) ![8, 0, 0] S1x64x128.size inb_S16x64x128_S1x64x128_8_0_0))
  (k1_pay14 (View.ld x0 (Rect.unit (s := S128x16x64) ![0, 7, 0] S128x1x64.size inb_S128x16x64_S128x1x64_0_7_0)) (View.ld x1 (Rect.unit (s := S16x64x128) ![7, 0, 0] S1x64x128.size inb_S16x64x128_S1x64x128_7_0_0))
  (k1_pay13 (View.ld x0 (Rect.unit (s := S128x16x64) ![0, 6, 0] S128x1x64.size inb_S128x16x64_S128x1x64_0_6_0)) (View.ld x1 (Rect.unit (s := S16x64x128) ![6, 0, 0] S1x64x128.size inb_S16x64x128_S1x64x128_6_0_0))
  (k1_pay12 (k1_pay11 (View.ld x0 (Rect.unit (s := S128x16x64) ![0, 5, 0] S128x1x64.size inb_S128x16x64_S128x1x64_0_5_0)) (View.ld x1 (Rect.unit (s := S16x64x128) ![5, 0, 0] S1x64x128.size inb_S16x64x128_S1x64x128_5_0_0))
  (k1_pay10 (View.ld x0 (Rect.unit (s := S128x16x64) ![0, 4, 0] S128x1x64.size inb_S128x16x64_S128x1x64_0_4_0)) (View.ld x1 (Rect.unit (s := S16x64x128) ![4, 0, 0] S1x64x128.size inb_S16x64x128_S1x64x128_4_0_0))
  (k1_pay9 (k1_pay8 (View.ld x0 (Rect.unit (s := S128x16x64) ![0, 3, 0] S128x1x64.size inb_S128x16x64_S128x1x64_0_3_0)) (View.ld x1 (Rect.unit (s := S16x64x128) ![3, 0, 0] S1x64x128.size inb_S16x64x128_S1x64x128_3_0_0)))
  (k1_pay7 (View.ld x0 (Rect.unit (s := S128x16x64) ![0, 2, 0] S128x1x64.size inb_S128x16x64_S128x1x64_0_2_0)) (View.ld x1 (Rect.unit (s := S16x64x128) ![2, 0, 0] S1x64x128.size inb_S16x64x128_S1x64x128_2_0_0))
  (k1_pay6 (k1_pay5 (View.ld x0 (Rect.unit (s := S128x16x64) ![0, 1, 0] S128x1x64.size inb_S128x16x64_S128x1x64_0_1_0)) (View.ld x1 (Rect.unit (s := S16x64x128) ![1, 0, 0] S1x64x128.size inb_S16x64x128_S1x64x128_1_0_0)))
  (k1_pay4 (View.ld x0 (Rect.unit (s := S128x16x64) ![0, 0, 0] S128x1x64.size inb_S128x16x64_S128x1x64_0_0_0)) (View.ld x1 (Rect.unit (s := S16x64x128) ![0, 0, 0] S1x64x128.size inb_S16x64x128_S1x64x128_0_0_0))
  (k1_pay3 (F := F))))))))))))))))))

/-- The accumulator's new value: the old one plus the masked, exponentiated distances summed over the second block's
    rows. `row` is the word of the first grid coordinate, `col` the word of the second grid coordinate times 128. -/
def accNext (x0 : Vec F S128x16x64 .f32) (x1 : Vec F S16x64x128 .f32) (row col : BitVec 32)
    (acc : Vec F S128x64 .f32) : FVec F S128x64 .f32 :=
  k1_pay1 (k1_pay26 (l1Chain x0 x1)) (k1_pay27 row) col acc

end DataFlow

end Cert.KernelIdeal.Hand

end
-- ==== Proof.KI.R1Pieces.lean ====
/-
  Region 1's found pieces read as values: in every case the accumulator scratch ends at the body's one
  arithmetic term of the two input blocks and the accumulator it started from (zero when the column block is 0,
  what the scratch held otherwise), and in the emitting case the output buffer ends at that same term.
-/
import proofs.«141043_j33517924778715_2_alg».proof.Proof.KI.R1
import proofs.«141043_j33517924778715_2_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer after a list of stores whose LAST one (the list's head) stored the whole buffer reads
    that store's payload, whatever the earlier stores were. -/
theorem readCov_cons_whole {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

theorem hz2 : (![0, 0] : Fin S128x64.rank → Nat) = fun _ => 0 := by
  funext a; match a with | ⟨0, _⟩ => rfl | ⟨1, _⟩ => rfl
theorem hz3 : (![0, 0, 0] : Fin S128x64x128.rank → Nat) = fun _ => 0 := by
  funext a; match a with | ⟨0, _⟩ => rfl | ⟨1, _⟩ => rfl | ⟨2, _⟩ => rfl

set_option maxHeartbeats 1000000 in
theorem sout1_A_eq (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : cond1_0 i) (hc1 : ¬cond1_1 i)
    (x0 : Vec F S128x16x64 .f32) (x1 : Vec F S16x64x128 .f32) :
    sout1_A_0 c i arg2 harg2 arg3 harg3 arg4 harg4 arg5 harg5 arg6 harg6 hc0 hc1 x0 x1 = accNext x0 x1 (BitVec.ofNat 32 (i 0).val) (Scalar.muli (BitVec.ofNat 32 (i 1).val) 128#32) (k1_pay2 (F := F)) := by
  unfold sout1_A_0
  rw [View.read_writes_eq_canon _ _ _ (scover1_A_0 c i arg2 harg2 arg3 harg3 arg4 harg4 arg5 harg5 arg6 harg6 hc0 hc1 x0 x1)]
  unfold kernelRun1_A
  dsimp only
  sl_unfold_words
  rw [View.canon_cons_unit_zero hz2]
  repeat rw [readCov_cons_whole (S := S128x64x128) arg6.view hz3]
  try rw [readCov_cons_whole (S := S128x64) arg5.view hz2]
  simp only [View.readAt_eq_ld, harg2.read_unread, harg3.read_unread, harg5.read_unread, View.ld_unit_zero (S := S128x64) hz2]
  rfl

set_option maxHeartbeats 1000000 in
theorem sout1_B_eq (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : ¬cond1_1 i)
    (x0 : Vec F S128x16x64 .f32) (x1 : Vec F S16x64x128 .f32) (xs0 : Vec F S128x64 .f32) :
    sout1_B_0 c i arg2 harg2 arg3 harg3 arg4 harg4 arg5 harg5 arg6 harg6 hc0 hc1 x0 x1 xs0 = accNext x0 x1 (BitVec.ofNat 32 (i 0).val) (Scalar.muli (BitVec.ofNat 32 (i 1).val) 128#32) xs0 := by
  unfold sout1_B_0
  rw [View.read_writes_eq_canon _ _ _ (scover1_B_0 c i arg2 harg2 arg3 harg3 arg4 harg4 arg5 harg5 arg6 harg6 hc0 hc1 x0 x1 xs0)]
  unfold kernelRun1_B
  dsimp only
  sl_unfold_words
  rw [View.canon_unit_zero hz2]
  repeat rw [readCov_cons_whole (S := S128x64x128) arg6.view hz3]
  try rw [readCov_cons_whole (S := S128x64) arg5.view hz2]
  simp only [View.readAt_eq_ld, harg2.read_unread, harg3.read_unread, harg5.read_unread, View.ld_unit_zero (S := S128x64) hz2]
  rfl

set_option maxHeartbeats 1000000 in
theorem sout1_C_eq (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) :
    sout1_C_0 c i arg2 harg2 arg3 harg3 arg4 harg4 arg5 harg5 arg6 harg6 hc0 hc1 x0 x1 xs0 = accNext x0 x1 (BitVec.ofNat 32 (i 0).val) (Scalar.muli (BitVec.ofNat 32 (i 1).val) 128#32) xs0 := by
  unfold sout1_C_0
  rw [View.read_writes_eq_canon _ _ _ (scover1_C_0 c i arg2 harg2 arg3 harg3 arg4 harg4 arg5 harg5 arg6 harg6 hc0 hc1 x0 x1 xs0)]
  unfold kernelRun1_C
  dsimp only
  sl_unfold_words
  rw [View.canon_unit_zero hz2]
  repeat rw [readCov_cons_whole (S := S128x64x128) arg6.view hz3]
  try rw [readCov_cons_whole (S := S128x64) arg5.view hz2]
  simp only [View.readAt_eq_ld, harg2.read_unread, harg3.read_unread, harg5.read_unread, View.ld_unit_zero (S := S128x64) hz2]
  rfl

set_option maxHeartbeats 1000000 in
theorem out1_C_eq (c : Dev nD) (i : grid1.Coords) (arg2 : Memref sig .tc .vmem S128x16x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64x128 .f32) (harg6 : arg6.IsWhole) (hc0 : ¬cond1_0 i) (hc1 : cond1_1 i)
    (x0 : Vec F S128x16x64 .f32) (x1 : Vec F S16x64x128 .f32) (xs0 : Vec F S128x64 .f32) :
    out1_C_2 c i arg2 harg2 arg3 harg3 arg4 harg4 arg5 harg5 arg6 harg6 hc0 hc1 x0 x1 xs0 = accNext x0 x1 (BitVec.ofNat 32 (i 0).val) (Scalar.muli (BitVec.ofNat 32 (i 1).val) 128#32) xs0 := by
  unfold out1_C_2
  rw [View.read_writes_eq_canon _ _ _ (cover1_C_2 c i arg2 harg2 arg3 harg3 arg4 harg4 arg5 harg5 arg6 harg6 hc0 hc1 x0 x1 xs0)]
  unfold kernelRun1_C
  dsimp only
  sl_unfold_words
  rw [View.canon_unit_zero hz2]
  repeat rw [readCov_cons_whole (S := S128x64x128) arg6.view hz3]
  try rw [readCov_cons_whole (S := S128x64) arg5.view hz2]
  simp only [View.readAt_eq_ld, harg2.read_unread, harg3.read_unread, harg5.read_unread, View.ld_unit_zero (S := S128x64) hz2]
  rfl

end Cert.KernelIdeal.Hand

end
-- ==== Proof.KI.R1Math.lean ====
/-
  The arithmetic of one grid point of the pairwise-distance kernel body, read at an index over the extended reals.

  The scratch after the sixteen steps holds, at (a, o, l), the L1 distance Σ_k |x0(a, k, o) − x1(k, o, l)| between row a
  of the first block and row l of the second at feature o; the accumulator's new value at (a, o) is its old value plus
  Σ_l exp(−distance(a, o, l)) · [global row of a ≠ global row of l].
-/
import proofs.«141043_j33517924778715_2_alg».proof.Proof.KI.R1Defs

noncomputable section

namespace Cert.KernelIdeal.Hand

open Cert.KernelIdeal Cert.KernelIdeal.Gen Idealize.ShloMosaic Idealize.ShloMosaic.ValueIdx

/-! ## Sixteen extended reals added one after the other from zero -/

/-- A sum over sixteen positions is its terms added left to right, starting from zero. -/
theorem sum_sixteen (t : Fin 16 → EReal) :
    ∑ k : Fin 16, t k
      = 0 + t 0 + t 1 + t 2 + t 3 + t 4 + t 5 + t 6 + t 7 + t 8 + t 9 + t 10 + t 11 + t 12 + t 13 + t 14 + t 15 := by
  simp only [Fin.sum_univ_castSucc, Fin.sum_univ_zero]
  rfl

/-! ## One position of each block, read at an index -/

section Slabs
variable {α : Type} {Val : EltTy → Type} {e : EltTy}

/-- Position k of the first block, read at row a and feature o (its middle axis has the one coordinate u). -/
theorem slab0_apply (x0 : S128x16x64.Idx → Val e) (k : Fin 16)
    (inb : ∀ d, (![0, k.val, 0] : Fin 3 → Nat) d + S128x1x64.size d ≤ S128x16x64.size d)
    (a : Fin 128) (u : Fin 1) (o : Fin 64) :
    View.ld x0 (Rect.unit (s := S128x16x64) ![0, k.val, 0] S128x1x64.size inb) (ix3 a u o) = x0 (ix3 a k o) := by
  have hu : u.val = 0 := by omega
  refine congrArg x0 (funext fun d => Fin.ext ?_)
  match d with
  | ⟨0, _⟩ => show 0 + 1 * a.val = a.val; omega
  | ⟨1, _⟩ => show k.val + 1 * u.val = k.val; omega
  | ⟨2, _⟩ => show 0 + 1 * o.val = o.val; omega

/-- Position k of the second block, read at feature o and row l (its leading axis has the one coordinate u). -/
theorem slab1_apply (x1 : S16x64x128.Idx → Val e) (k : Fin 16)
    (inb : ∀ d, (![k.val, 0, 0] : Fin 3 → Nat) d + S1x64x128.size d ≤ S16x64x128.size d)
    (u : Fin 1) (o : Fin 64) (l : Fin 128) :
    View.ld x1 (Rect.unit (s := S16x64x128) ![k.val, 0, 0] S1x64x128.size inb) (ix3 u o l) = x1 (ix3 k o l) := by
  have hu : u.val = 0 := by omega
  refine congrArg x1 (funext fun d => Fin.ext ?_)
  match d with
  | ⟨0, _⟩ => show k.val + 1 * u.val = k.val; omega
  | ⟨1, _⟩ => show 0 + 1 * o.val = o.val; omega
  | ⟨2, _⟩ => show 0 + 1 * l.val = l.val; omega

/-- A [128, 1, 64] slab viewed as [128, 64], then as [128, 64, 1], then spread along a new last axis of 128: at (a, o, l)
    it reads the slab at (a, 0, o), whatever l. -/
theorem spreadRows_apply (v : S128x1x64.Idx → α) (a : Fin 128) (o : Fin 64) (l : Fin 128) :
    broadcastTo S128x64x128 (shapeCast S128x64x1 (shapeCast S128x64 v shapeCasts_S128x1x64_S128x64)
      shapeCasts_S128x64_S128x64x1) broadcasts_S128x64x1_S128x64x128 (ix3 a o l) = v (ix3 a (0 : Fin 1) o) := by
  refine (broadcastTo_apply _ _ (ix3 a o l) (ix3 a o (0 : Fin 1)) (fun d => ?_)).trans ?_
  · match d with
    | ⟨0, _⟩ => rfl
    | ⟨1, _⟩ => rfl
    | ⟨2, _⟩ => rfl
  refine (shapeCast_apply _ _ (ix3 a o (0 : Fin 1)) (ix2 a o) ?_).trans ?_
  · rw [Shape.rowMajor_val_two, Shape.rowMajor_val_three]
    show a.val * 64 + o.val = (a.val * 64 + o.val) * 1 + 0
    omega
  refine shapeCast_apply _ _ (ix2 a o) (ix3 a (0 : Fin 1) o) ?_
  rw [Shape.rowMajor_val_two, Shape.rowMajor_val_three]
  show (a.val * 1 + 0) * 64 + o.val = a.val * 64 + o.val
  omega

/-- A [1, 64, 128] slab viewed as [64, 128] and back, then spread along the leading axis to 128 rows: at (a, o, l) it
    reads the slab at (0, o, l), whatever a. -/
theorem spreadCols_apply (v : S1x64x128.Idx → α) (a : Fin 128) (o : Fin 64) (l : Fin 128) :
    broadcastTo S128x64x128 (shapeCast S1x64x128 (shapeCast S64x128 v shapeCasts_S1x64x128_S64x128)
      shapeCasts_S64x128_S1x64x128) broadcasts_S1x64x128_S128x64x128 (ix3 a o l) = v (ix3 (0 : Fin 1) o l) := by
  refine (broadcastTo_apply _ _ (ix3 a o l) (ix3 (0 : Fin 1) o l) (fun d => ?_)).trans ?_
  · match d with
    | ⟨0, _⟩ => rfl
    | ⟨1, _⟩ => rfl
    | ⟨2, _⟩ => rfl
  exact congrFun (shapeCast_shapeCast v _ _) _

end Slabs

/-! ## One accumulation step, and the sixteen of them -/

/-- The summand of position k: the absolute difference of the two rows' entries there, the absolute value of an
    extended real d being max d (−d). -/
def absDiff (x0 : Vec Ideal S128x16x64 .f32) (x1 : Vec Ideal S16x64x128 .f32) (a : Fin 128) (o : Fin 64) (l : Fin 128)
    (k : Fin 16) : EReal :=
  max (x0 (ix3 a k o) - x1 (ix3 k o l)) (-(x0 (ix3 a k o) - x1 (ix3 k o l)))

/-- The zeroed scratch reads zero. -/
theorem scratch_zero_apply (a : Fin 128) (o : Fin 64) (l : Fin 128) :
    (k1_pay3 (F := Ideal)) (ix3 a o l) = 0 := by
  unfold k1_pay3
  refine (congrFun (shapeCast_self _ _) _).trans ?_
  exact Ideal.ofBits_zero_f32

/-- One step: where the scratch held r at (a, o, l) it now holds r + |x0(a, k, o) − x1(k, o, l)|. The step is spelt as
    the printed operations on the two slabs and the scratch loaded back. -/
theorem step_apply (x0 : Vec Ideal S128x16x64 .f32) (x1 : Vec Ideal S16x64x128 .f32) (k : Fin 16)
    (inb0 : ∀ d, (![0, k.val, 0] : Fin 3 → Nat) d + S128x1x64.size d ≤ S128x16x64.size d)
    (inb1 : ∀ d, (![k.val, 0, 0] : Fin 3 → Nat) d + S1x64x128.size d ≤ S16x64x128.size d)
    (acc : FVec Ideal S128x64x128 .f32) (a : Fin 128) (o : Fin 64) (l : Fin 128) (r : EReal)
    (h : acc (ix3 a o l) = r) :
    shapeCast S128x64x128
      (addf acc (absf (subf
        (broadcastTo S128x64x128 (shapeCast S128x64x1 (shapeCast S128x64
          (View.ld x0 (Rect.unit (s := S128x16x64) ![0, k.val, 0] S128x1x64.size inb0)) shapeCasts_S128x1x64_S128x64)
          shapeCasts_S128x64_S128x64x1) broadcasts_S128x64x1_S128x64x128)
        (broadcastTo S128x64x128 (shapeCast S1x64x128 (shapeCast S64x128
          (View.ld x1 (Rect.unit (s := S16x64x128) ![k.val, 0, 0] S1x64x128.size inb1)) shapeCasts_S1x64x128_S64x128)
          shapeCasts_S64x128_S1x64x128) broadcasts_S1x64x128_S128x64x128))))
      shapeCasts_S128x64x128_S128x64x128 (ix3 a o l)
      = r + absDiff x0 x1 a o l k := by
  refine (congrFun (shapeCast_self _ _) _).trans ?_
  have hL := (spreadRows_apply (View.ld x0 (Rect.unit (s := S128x16x64) ![0, k.val, 0] S128x1x64.size inb0)) a o l).trans
    (slab0_apply x0 k inb0 a 0 o)
  have hR := (spreadCols_apply (View.ld x1 (Rect.unit (s := S16x64x128) ![k.val, 0, 0] S1x64x128.size inb1)) a o l).trans
    (slab1_apply x1 k inb1 0 o l)
  unfold absDiff
  rw [← hL, ← hR, ← h]
  rfl

/-- THE SCRATCH AFTER THE SIXTEEN STEPS at (a, o, l): the L1 distance between row a of the first block and row l of the
    second at feature o, the sum over the sixteen positions of the absolute differences. -/
theorem l1Chain_apply (x0 : Vec Ideal S128x16x64 .f32) (x1 : Vec Ideal S16x64x128 .f32) (a : Fin 128) (o : Fin 64)
    (l : Fin 128) :
    l1Chain (F := Ideal) x0 x1 (ix3 a o l)
      = ∑ k : Fin 16, max (x0 (ix3 a k o) - x1 (ix3 k o l)) (-(x0 (ix3 a k o) - x1 (ix3 k o l))) := by
  refine Eq.trans ?_ (sum_sixteen (absDiff x0 x1 a o l)).symm
  unfold l1Chain
  refine step_apply x0 x1 15 _ _ _ a o l _ ?_
  refine step_apply x0 x1 14 _ _ _ a o l _ ?_
  refine step_apply x0 x1 13 _ _ _ a o l _ ?_
  refine step_apply x0 x1 12 _ _ _ a o l _ ?_
  refine step_apply x0 x1 11 _ _ _ a o l _ ?_
  refine step_apply x0 x1 10 _ _ _ a o l _ ?_
  refine step_apply x0 x1 9 _ _ _ a o l _ ?_
  refine step_apply x0 x1 8 _ _ _ a o l _ ?_
  refine step_apply x0 x1 7 _ _ _ a o l _ ?_
  refine step_apply x0 x1 6 _ _ _ a o l _ ?_
  refine step_apply x0 x1 5 _ _ _ a o l _ ?_
  refine step_apply x0 x1 4 _ _ _ a o l _ ?_
  refine step_apply x0 x1 3 _ _ _ a o l _ ?_
  refine step_apply x0 x1 2 _ _ _ a o l _ ?_
  refine step_apply x0 x1 1 _ _ _ a o l _ ?_
  refine step_apply x0 x1 0 _ _ _ a o l _ ?_
  exact scratch_zero_apply a o l

/-! ## The lane sum, and the mask of the two global row numbers -/

/-- The sum over the last axis of a [128, 64, 128] array, from the zero word, at (a, o): the sum over l of its entries
    at (a, o, l). -/
theorem laneSum_apply (src : FVec Ideal S128x64x128 .f32) (hφ : FKind.Formats .f32)
    (hacc : (0x00000000#32 : BitVec 32) = 0x00000000#32) (a : Fin 128) (o : Fin 64) :
    multiReduction .add [2] S128x64 src 0x00000000#32 reduces_S128x64x128_S128x64 hφ hacc (ix2 a o)
      = ∑ l : Fin 128, src (ix3 a o l) := by
  refine (Ideal.multiReduction_add_single src 0x00000000#32 reduces_S128x64x128_S128x64 hφ hacc (ix2 a o)).trans ?_
  refine Finset.sum_congr rfl (fun l _ => congrArg src (funext fun d => ?_))
  match d with
  | ⟨0, _⟩ => rfl
  | ⟨1, _⟩ => rfl
  | ⟨2, _⟩ => rfl

/-- A block number below 4 times 128 plus a place below 128, computed on 32-bit words, is the word of that number. -/
theorem rowWord_eq (b : Fin 4) (a : Fin 128) :
    IntOp.addi (Scalar.muli (BitVec.ofNat 32 b.val) 128#32) (BitVec.ofNat 32 a.val)
      = BitVec.ofNat 32 (b.val * 128 + a.val) := by
  show BitVec.ofNat 32 b.val * 128#32 + BitVec.ofNat 32 a.val = _
  apply BitVec.eq_of_toNat_eq
  simp only [BitVec.toNat_add, BitVec.toNat_mul, BitVec.toNat_ofNat]
  omega

/-- Two numbers below 512 have the same 32-bit word only if they are equal. -/
theorem word_inj {m n : Nat} (hm : m < 512) (hn : n < 512) (h : BitVec.ofNat 32 m = BitVec.ofNat 32 n) : m = n := by
  have := congrArg BitVec.toNat h
  simp only [BitVec.toNat_ofNat] at this
  omega

/-- The one-bit answer to "are the two global row numbers different", widened to 32 bits, read as a signed integer
    and converted: 0 when the numbers agree, 1 when they differ. -/
theorem indicator_word (bi bj : Fin 4) (a l : Fin 128) :
    (((BitVec.setWidth 32 (IntOp.cmpi .ne
        (IntOp.addi (Scalar.muli (BitVec.ofNat 32 bi.val) 128#32) (BitVec.ofNat 32 a.val))
        (IntOp.addi (Scalar.muli (BitVec.ofNat 32 bj.val) 128#32) (BitVec.ofNat 32 l.val)))).toInt : ℝ) : EReal)
      = if bi.val * 128 + a.val = bj.val * 128 + l.val then 0 else 1 := by
  rw [rowWord_eq, rowWord_eq]
  have e0 : (BitVec.setWidth 32 (0#1)).toInt = 0 := by decide
  have e1 : (BitVec.setWidth 32 (1#1)).toInt = 1 := by decide
  by_cases h : bi.val * 128 + a.val = bj.val * 128 + l.val
  · rw [if_pos h, h]
    have hc : IntOp.cmpi .ne (BitVec.ofNat 32 (bj.val * 128 + l.val)) (BitVec.ofNat 32 (bj.val * 128 + l.val)) = 0#1 := by
      show BitVec.ofBool (BitVec.ofNat 32 (bj.val * 128 + l.val) != BitVec.ofNat 32 (bj.val * 128 + l.val)) = 0#1
      rw [bne_self_eq_false]; rfl
    rw [hc, e0]
    simp
  · rw [if_neg h]
    have hne : BitVec.ofNat 32 (bi.val * 128 + a.val) ≠ BitVec.ofNat 32 (bj.val * 128 + l.val) :=
      fun e => h (word_inj (by omega) (by omega) e)
    have hc : IntOp.cmpi .ne (BitVec.ofNat 32 (bi.val * 128 + a.val)) (BitVec.ofNat 32 (bj.val * 128 + l.val)) = 1#1 := by
      show BitVec.ofBool (BitVec.ofNat 32 (bi.val * 128 + a.val) != BitVec.ofNat 32 (bj.val * 128 + l.val)) = 1#1
      rw [bne_iff_ne.mpr hne]; rfl
    rw [hc, e1]
    simp

/-- THE MASK at (a, o, l): built from the first block's global row numbers (block number · 128 + row, down the rows) and
    the second block's (block number · 128 + row, along the columns), compared for inequality, converted, and spread
    over the 64 features: 0 where the two global rows are the same row, 1 elsewhere. -/
theorem mask_apply (bi bj : Fin 4) (a : Fin 128) (o : Fin 64) (l : Fin 128) :
    broadcastTo S128x64x128 (shapeCast S128x1x128 (sitofp (F := Ideal) .f32 (extui 32 (cmpi .ne
        (k1_pay27 (BitVec.ofNat 32 bi.val))
        (addi (broadcast S128x128 (Scalar.muli (BitVec.ofNat 32 bj.val) 128#32))
          (iota .tc S128x128 32 [1] iota_S128x128_d1_w32))) natLt_1_32)) shapeCasts_S128x128_S128x1x128)
      broadcasts_S128x1x128_S128x64x128 (ix3 a o l)
      = if bi.val * 128 + a.val = bj.val * 128 + l.val then 0 else 1 := by
  refine (broadcastTo_apply _ _ (ix3 a o l) (ix3 a (0 : Fin 1) l) (fun d => ?_)).trans ?_
  · match d with
    | ⟨0, _⟩ => rfl
    | ⟨1, _⟩ => rfl
    | ⟨2, _⟩ => rfl
  refine (shapeCast_apply _ _ (ix3 a (0 : Fin 1) l) (ix2 a l) ?_).trans ?_
  · rw [Shape.rowMajor_val_two, Shape.rowMajor_val_three]
    show a.val * 128 + l.val = (a.val * 1 + 0) * 128 + l.val
    omega
  unfold k1_pay27
  show (((BitVec.setWidth 32 (IntOp.cmpi .ne
        (IntOp.addi (Scalar.muli (BitVec.ofNat 32 bi.val) 128#32) (iota .tc S128x128 32 [0] iota_S128x128_d0_w32 (ix2 a l)))
        (IntOp.addi (Scalar.muli (BitVec.ofNat 32 bj.val) 128#32) (iota .tc S128x128 32 [1] iota_S128x128_d1_w32 (ix2 a l))))).toInt : ℝ) : EReal) = _
  rw [iota_single_apply, iota_single_apply]
  exact indicator_word bi bj a l

/-! ## The accumulator's new value -/

/-- exp of the negated scratch: the printed 0 − d under exp is exp (−d). -/
theorem expNeg_apply (d : FVec Ideal S128x64x128 .f32) (a : Fin 128) (o : Fin 64) (l : Fin 128) :
    k1_pay26 (F := Ideal) d (ix3 a o l) = Ideal.exp (-(d (ix3 a o l))) := by
  unfold k1_pay26
  show Ideal.exp (Ideal.ofBits .f32 0x00000000#32 - d (ix3 a o l)) = _
  rw [Ideal.ofBits_zero_f32, zero_sub]

/-- THE ACCUMULATOR'S NEW VALUE at (a, o), at the grid point of row block bi and column block bj: the old value plus the
    sum over the column block's rows l of exp (−distance(a, o, l)) times the indicator that global row bi · 128 + a is
    not global row bj · 128 + l. -/
theorem accNext_apply (x0 : Vec Ideal S128x16x64 .f32) (x1 : Vec Ideal S16x64x128 .f32) (bi bj : Fin 4)
    (acc : Vec Ideal S128x64 .f32) (a : Fin 128) (o : Fin 64) :
    accNext (F := Ideal) x0 x1 (BitVec.ofNat 32 bi.val) (Scalar.muli (BitVec.ofNat 32 bj.val) 128#32) acc (ix2 a o)
      = acc (ix2 a o) + ∑ l : Fin 128, Ideal.exp (-(l1Chain (F := Ideal) x0 x1 (ix3 a o l)))
          * (if bi.val * 128 + a.val = bj.val * 128 + l.val then 0 else 1) := by
  unfold accNext k1_pay1
  refine (congrFun (shapeCast_self _ _) _).trans ?_
  refine (addf_apply (acc : FVec Ideal S128x64 .f32) _ (ix2 a o)).trans ?_
  refine congrArg (acc (ix2 a o) + ·) ?_
  refine (laneSum_apply _ _ _ a o).trans ?_
  refine Finset.sum_congr rfl (fun l _ => ?_)
  refine (mulf_apply _ _ (ix3 a o l)).trans ?_
  rw [expNeg_apply, mask_apply]

end Cert.KernelIdeal.Hand

end
-- ==== Proof.KI.BlockSum.lean ====
/-
  Two pure laws that join the blocked computation to the whole one.

  A sum over 512 rows is the sum, block after block, of four sums over 128 rows each (row q · 128 + l lies in block q at
  place l); the extended reals form an additive commutative monoid, so no finiteness is needed. And the off-diagonal
  indicator of two global row numbers, each a block number times 128 plus a place inside the block, is the indicator
  that the two numbers differ.
-/
import proofs.«141043_j33517924778715_2_alg».proof.Proof.Spec
import Mathlib.Algebra.BigOperators.Fin

noncomputable section

namespace Cert.Spec

/-- A sum over 512 rows, taken as four consecutive blocks of 128 added one after the other from zero. -/
theorem sum_blocks (f : Fin 512 → EReal) :
    ((((0 + ∑ l : Fin 128, f ⟨0 * 128 + l.val, by omega⟩) + ∑ l : Fin 128, f ⟨1 * 128 + l.val, by omega⟩)
      + ∑ l : Fin 128, f ⟨2 * 128 + l.val, by omega⟩) + ∑ l : Fin 128, f ⟨3 * 128 + l.val, by omega⟩)
      = ∑ j : Fin 512, f j := by
  have key : ∑ q : Fin 4, ∑ l : Fin 128, f ⟨q.val * 128 + l.val, by omega⟩ = ∑ j : Fin 512, f j := by
    rw [← Fintype.sum_prod_type (f := fun p : Fin 4 × Fin 128 => f ⟨p.1.val * 128 + p.2.val, by omega⟩)]
    refine Fintype.sum_equiv (finProdFinEquiv (m := 4) (n := 128)) _ f (fun p => congrArg f (Fin.ext ?_))
    show p.1.val * 128 + p.2.val = p.2.val + 128 * p.1.val
    omega
  rw [zero_add, ← key, Fin.sum_univ_four]
  rfl

/-- The indicator that two global row numbers differ is the off-diagonal indicator of the two rows. -/
theorem offDiag_eq (bi bj : Fin 4) (a l : Fin 128) :
    (if bi.val * 128 + a.val = bj.val * 128 + l.val then (0 : EReal) else 1)
      = offDiag ⟨bi.val * 128 + a.val, by omega⟩ ⟨bj.val * 128 + l.val, by omega⟩ := by
  unfold offDiag
  by_cases h : bi.val * 128 + a.val = bj.val * 128 + l.val
  · rw [if_pos h, if_pos (Fin.ext h)]
  · rw [if_neg h, if_neg (fun e => h (Fin.ext_iff.mp e))]

end Cert.Spec

end
-- ==== Proof.KI.R1Sim.lean ====
import proofs.«141043_j33517924778715_2_alg».proof.Proof.Spec
import Idealize.ShloMosaic.PureOps.Ideal
import Idealize.ShloMosaic.Lib.ValueIdx

/-!
# One entry of the second region's result, as a function of its two input arrays

The second region reads an array `X` of 512 rows, each a family of 16 positions by 64 features, and an array `Y`
holding the same kind of rows position-major (16 by 64 by 512). Entry `(i, o)` of its result is
`Σ_j exp(−Σ_k |X(i, k, o) − Y(k, o, j)|) · [i ≠ j]`, the absolute value of an extended real `a` being `max a (−a)`.
Stated once over arrays of extended reals, so that every statement about the region's output names the same sum.
-/

noncomputable section

namespace Cert.KernelIdeal.Hand

open Idealize.ShloMosaic Idealize.ShloMosaic.ValueIdx

/-- Entry `(i, o)` of the result: row `i`'s similarity to every other row `j` at feature `o`. -/
def simEntry (X : (⟨3, ![512, 16, 64]⟩ : Shape).Idx → EReal) (Y : (⟨3, ![16, 64, 512]⟩ : Shape).Idx → EReal)
    (i : Fin 512) (o : Fin 64) : EReal :=
  ∑ j : Fin 512, Ideal.exp (-(∑ k : Fin 16, max (X (ix3 i k o) - Y (ix3 k o j)) (-(X (ix3 i k o) - Y (ix3 k o j)))))
    * Cert.Spec.offDiag i j

end Cert.KernelIdeal.Hand

end
-- ==== Proof.KI.R1Acc.lean ====
/-
  Pipeline region 1, the accumulation over the grid, read over the extended reals.

  The region's sixteen points are numbered t = 4 · (row block) + (column block). A point whose column block is 0 starts
  the accumulator scratch from zero; every other point adds to what the point before left; each point adds its lane
  term, the sum over its column block's 128 rows l of exp (−distance) times the indicator that the two global rows
  differ. At a point whose column block is the last the output block receives the accumulated value: four lane terms
  added one after the other from zero. Read off the two whole arrays, each lane term is a sum over 128 consecutive rows
  of one function of the row number, and the four of them are one sum over all 512 rows.
-/
import proofs.«141043_j33517924778715_2_alg».proof.Proof.KI.R1Pieces
import proofs.«141043_j33517924778715_2_alg».proof.Proof.KI.R1Math
import proofs.«141043_j33517924778715_2_alg».proof.Proof.KI.BlockSum
import proofs.«141043_j33517924778715_2_alg».proof.Proof.KI.R1Blocks
import proofs.«141043_j33517924778715_2_alg».proof.Proof.KI.R1Sim
import proofs.«141043_j33517924778715_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Acc

variable (V : (c : Dev nD) → (b : Ref sig .tc) → Buf (Elt Ideal) ((c : Thread nD τ).loc b)) (c : Dev nD)

/-- The accumulator's start when the column block is 0 reads zero. -/
theorem acc_zero_apply (a : Fin 128) (o : Fin 64) : (k1_pay2 (F := Ideal)) (ix2 a o) = 0 := by
  unfold k1_pay2
  refine (congrFun (shapeCast_self _ _) _).trans ?_
  exact Ideal.ofBits_zero_f32

/-- The accumulator's new value at the grid point numbered n, whose coordinates are n / 4 and n % 4. -/
theorem accNext_point (x0 : Vec Ideal S128x16x64 .f32) (x1 : Vec Ideal S16x64x128 .f32) (i : grid1.Coords) (n : ℕ)
    (hn : n < 16) (hr : (i 0).val = n / 4) (hc : (i 1).val = n % 4) (acc : Vec Ideal S128x64 .f32)
    (a : Fin 128) (o : Fin 64) :
    accNext (F := Ideal) x0 x1 (BitVec.ofNat 32 (i 0).val) (Scalar.muli (BitVec.ofNat 32 (i 1).val) 128#32) acc (ix2 a o)
      = acc (ix2 a o) + ∑ l : Fin 128, Ideal.exp (-(l1Chain (F := Ideal) x0 x1 (ix3 a o l)))
          * (if n / 4 * 128 + a.val = n % 4 * 128 + l.val then 0 else 1) := by
  rw [hr, hc]
  exact accNext_apply x0 x1 ⟨n / 4, by omega⟩ ⟨n % 4, by omega⟩ acc a o

/-- What point t adds to the accumulator at (a, o): the sum over its column block's rows l of exp (−distance) times
    the indicator that the two global rows differ. -/
def lane (t : Fin cfg1.N) (a : Fin 128) (o : Fin 64) : EReal :=
  ∑ l : Fin 128, Ideal.exp (-(l1Chain (F := Ideal) (iblk1 V c 0 t) (iblk1 V c 1 t) (ix3 a o l)))
    * (if t.val / 4 * 128 + a.val = t.val % 4 * 128 + l.val then 0 else 1)

/-- The accumulator scratch at (a, o) after point n. -/
def scrAt (n : ℕ) (hn : n < cfg1.N) (a : Fin 128) (o : Fin 64) : EReal :=
  ((outsAt1 (F := Ideal) V c n hn).2 : S128x64.Idx → EReal) (ix2 a o)

/-- A point whose column block is 0 starts the accumulator from zero. -/
theorem scrAt_first (n : ℕ) (hn : n < cfg1.N) (h0 : n % 4 = 0) (a : Fin 128) (o : Fin 64) :
    scrAt V c n hn a o = 0 + lane V c ⟨n, hn⟩ a o := by
  have h1 : ¬n % 4 = 3 := by omega
  have hN : n < 16 := lt_of_lt_of_eq hn (show cfg1.N = 16 from N_1)
  unfold scrAt
  rw [show outsAt1 (F := Ideal) V c n hn = _ from outsAt1_A V c ⟨n, hn⟩ h0 h1]
  dsimp only
  refine (congrFun (sout1_A_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) scM1_1 (Memref.isWhole_whole _) ((hcond1_0 ⟨n, hn⟩).mpr h0) (fun h => h1 ((hcond1_1 ⟨n, hn⟩).mp h)) (iblk1 V c 0 ⟨n, hn⟩) (iblk1 V c 1 ⟨n, hn⟩)) (ix2 a o)).trans ?_
  refine (accNext_point (iblk1 V c 0 ⟨n, hn⟩) (iblk1 V c 1 ⟨n, hn⟩) (grid1.coords ⟨n, hn⟩) n hN (coords1_row ⟨n, hn⟩) (coords1_col ⟨n, hn⟩) (k1_pay2 (F := Ideal)) a o).trans ?_
  rw [acc_zero_apply]
  rfl

/-- Every other point adds its lane term to what the point before left. -/
theorem scrAt_step (n : ℕ) (hn : n < cfg1.N) (h0 : ¬n % 4 = 0) (a : Fin 128) (o : Fin 64) :
    scrAt V c n hn a o = scrAt V c (n - 1) (Nat.lt_of_le_of_lt (Nat.sub_le _ _) hn) a o + lane V c ⟨n, hn⟩ a o := by
  have hN : n < 16 := lt_of_lt_of_eq hn (show cfg1.N = 16 from N_1)
  unfold scrAt
  by_cases h1 : n % 4 = 3
  · rw [show outsAt1 (F := Ideal) V c n hn = _ from outsAt1_C V c ⟨n, hn⟩ h0 h1]
    dsimp only
    refine (congrFun (sout1_C_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) scM1_1 (Memref.isWhole_whole _) (fun h => h0 ((hcond1_0 ⟨n, hn⟩).mp h)) ((hcond1_1 ⟨n, hn⟩).mpr h1) (iblk1 V c 0 ⟨n, hn⟩) (iblk1 V c 1 ⟨n, hn⟩) (outsAt1 (F := Ideal) V c (n - 1) (Nat.lt_of_le_of_lt (Nat.sub_le _ _) hn)).2) (ix2 a o)).trans ?_
    exact accNext_point (iblk1 V c 0 ⟨n, hn⟩) (iblk1 V c 1 ⟨n, hn⟩) (grid1.coords ⟨n, hn⟩) n hN (coords1_row ⟨n, hn⟩) (coords1_col ⟨n, hn⟩) (outsAt1 (F := Ideal) V c (n - 1) (Nat.lt_of_le_of_lt (Nat.sub_le _ _) hn)).2 a o
  · rw [show outsAt1 (F := Ideal) V c n hn = _ from outsAt1_B V c ⟨n, hn⟩ h0 h1]
    dsimp only
    refine (congrFun (sout1_B_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) scM1_1 (Memref.isWhole_whole _) (fun h => h0 ((hcond1_0 ⟨n, hn⟩).mp h)) (fun h => h1 ((hcond1_1 ⟨n, hn⟩).mp h)) (iblk1 V c 0 ⟨n, hn⟩) (iblk1 V c 1 ⟨n, hn⟩) (outsAt1 (F := Ideal) V c (n - 1) (Nat.lt_of_le_of_lt (Nat.sub_le _ _) hn)).2) (ix2 a o)).trans ?_
    exact accNext_point (iblk1 V c 0 ⟨n, hn⟩) (iblk1 V c 1 ⟨n, hn⟩) (grid1.coords ⟨n, hn⟩) n hN (coords1_row ⟨n, hn⟩) (coords1_col ⟨n, hn⟩) (outsAt1 (F := Ideal) V c (n - 1) (Nat.lt_of_le_of_lt (Nat.sub_le _ _) hn)).2 a o

/-- At a point whose column block is the last, the output buffer receives the same value as the scratch. -/
theorem out_step (n : ℕ) (hn : n < cfg1.N) (h1 : n % 4 = 3) (a : Fin 128) (o : Fin 64) :
    ((outsAt1 (F := Ideal) V c n hn).1 : S128x64.Idx → EReal) (ix2 a o)
      = scrAt V c (n - 1) (Nat.lt_of_le_of_lt (Nat.sub_le _ _) hn) a o + lane V c ⟨n, hn⟩ a o := by
  have h0 : ¬n % 4 = 0 := by omega
  have hN : n < 16 := lt_of_lt_of_eq hn (show cfg1.N = 16 from N_1)
  unfold scrAt
  rw [show outsAt1 (F := Ideal) V c n hn = _ from outsAt1_C V c ⟨n, hn⟩ h0 h1]
  dsimp only
  refine (congrFun (out1_C_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) scM1_1 (Memref.isWhole_whole _) (fun h => h0 ((hcond1_0 ⟨n, hn⟩).mp h)) ((hcond1_1 ⟨n, hn⟩).mpr h1) (iblk1 V c 0 ⟨n, hn⟩) (iblk1 V c 1 ⟨n, hn⟩) (outsAt1 (F := Ideal) V c (n - 1) (Nat.lt_of_le_of_lt (Nat.sub_le _ _) hn)).2) (ix2 a o)).trans ?_
  exact accNext_point (iblk1 V c 0 ⟨n, hn⟩) (iblk1 V c 1 ⟨n, hn⟩) (grid1.coords ⟨n, hn⟩) n hN (coords1_row ⟨n, hn⟩) (coords1_col ⟨n, hn⟩) (outsAt1 (F := Ideal) V c (n - 1) (Nat.lt_of_le_of_lt (Nat.sub_le _ _) hn)).2 a o

/-- One row j's contribution to entry (i, o): exp of the negated L1 distance between rows i and j at feature o, times
    the off-diagonal indicator. The entry is the sum of these over the 512 rows. -/
def simTerm (X : (⟨3, ![512, 16, 64]⟩ : Shape).Idx → EReal) (Y : (⟨3, ![16, 64, 512]⟩ : Shape).Idx → EReal)
    (i : Fin 512) (o : Fin 64) (j : Fin 512) : EReal :=
  Ideal.exp (-(∑ k : Fin 16, max (X (ix3 i k o) - Y (ix3 k o j)) (-(X (ix3 i k o) - Y (ix3 k o j)))))
    * Cert.Spec.offDiag i j

theorem simEntry_eq_sum (X : (⟨3, ![512, 16, 64]⟩ : Shape).Idx → EReal) (Y : (⟨3, ![16, 64, 512]⟩ : Shape).Idx → EReal)
    (i : Fin 512) (o : Fin 64) : simEntry X Y i o = ∑ j : Fin 512, simTerm X Y i o j := rfl

/-- A point's lane term as a sum over its column block of the contributions of the block's rows, read off the two whole
    arrays: bi is the point's row block and q its column block, so the rows are q · 128 + l. -/
theorem lane_eq (t : Fin cfg1.N) (bi q : ℕ) (hb : t.val / 4 = bi) (hq : t.val % 4 = q) (hbi : bi < 4) (hq4 : q < 4)
    (a : Fin 128) (o : Fin 64) :
    lane V c t a o
      = ∑ l : Fin 128, simTerm (V c main_v2) (V c main_v3) ⟨bi * 128 + a.val, by omega⟩ o ⟨q * 128 + l.val, by omega⟩ := by
  subst hb hq
  unfold lane simTerm
  refine Finset.sum_congr rfl (fun l _ => ?_)
  refine congrArg₂ (· * ·) (congrArg (fun s => Ideal.exp (-s)) ?_) (Cert.Spec.offDiag_eq ⟨t.val / 4, hbi⟩ ⟨t.val % 4, hq4⟩ a l)
  refine (l1Chain_apply (iblk1 V c 0 t) (iblk1 V c 1 t) a o l).trans ?_
  refine Finset.sum_congr rfl (fun k _ => ?_)
  exact congrArg₂ (fun p q => max (p - q) (-(p - q))) (iblk1_0_apply V c t a k o) (iblk1_1_apply V c t k o l)

/-- After a point whose column block is the last, the output block holds the four lane terms of its row block, added
    one after the other from zero. -/
theorem out_chain (n : ℕ) (hn : n < cfg1.N) (ht : n % 4 = 3) (h1 : n - 1 < cfg1.N) (h2 : n - 1 - 1 < cfg1.N)
    (h3 : n - 1 - 1 - 1 < cfg1.N) (a : Fin 128) (o : Fin 64) :
    ((outsAt1 (F := Ideal) V c n hn).1 : S128x64.Idx → EReal) (ix2 a o)
      = 0 + lane V c ⟨n - 1 - 1 - 1, h3⟩ a o + lane V c ⟨n - 1 - 1, h2⟩ a o + lane V c ⟨n - 1, h1⟩ a o
          + lane V c ⟨n, hn⟩ a o := by
  have e3 := out_step V c n hn ht a o
  have e2 := scrAt_step V c (n - 1) h1 (by omega) a o
  have e1 := scrAt_step V c (n - 1 - 1) h2 (by omega) a o
  have e0 := scrAt_first V c (n - 1 - 1 - 1) h3 (by omega) a o
  refine e3.trans ?_
  exact congrArg (· + lane V c ⟨n, hn⟩ a o) (e2.trans (congrArg (· + lane V c ⟨n - 1, h1⟩ a o) (e1.trans
    (congrArg (· + lane V c ⟨n - 1 - 1, h2⟩ a o) e0))))

/-- THE OUTPUT BLOCK after a point whose column block is the last: at (a, o) it holds entry
    ((row block) · 128 + a, o) of the result, the sum over ALL 512 rows j of exp (−distance) times the off-diagonal
    indicator: the four column blocks' lane terms are one sum over the 512 rows. -/
theorem out_last (t : Fin cfg1.N) (ht : t.val % 4 = 3) (a : Fin 128) (o : Fin 64) :
    ((outsAt1 (F := Ideal) V c t.val t.isLt).1 : S128x64.Idx → EReal) (ix2 a o)
      = simEntry (V c main_v2) (V c main_v3) ⟨t.val / 4 * 128 + a.val, row_lt1 t a⟩ o := by
  have hN : cfg1.N = 16 := N_1
  have hn := t.isLt
  have hn16 : t.val < 16 := lt_of_lt_of_eq hn hN
  have hbi : t.val / 4 < 4 := by omega
  have h1 : t.val - 1 < cfg1.N := by omega
  have h2 : t.val - 1 - 1 < cfg1.N := by omega
  have h3 : t.val - 1 - 1 - 1 < cfg1.N := by omega
  have l3 := lane_eq V c ⟨t.val, hn⟩ (t.val / 4) 3 rfl ht hbi (by omega) a o
  have l2 := lane_eq V c ⟨t.val - 1, h1⟩ (t.val / 4) 2 (by show (t.val - 1) / 4 = t.val / 4; omega) (by show (t.val - 1) % 4 = 2; omega) hbi (by omega) a o
  have l1 := lane_eq V c ⟨t.val - 1 - 1, h2⟩ (t.val / 4) 1 (by show (t.val - 1 - 1) / 4 = t.val / 4; omega) (by show (t.val - 1 - 1) % 4 = 1; omega) hbi (by omega) a o
  have l0 := lane_eq V c ⟨t.val - 1 - 1 - 1, h3⟩ (t.val / 4) 0 (by show (t.val - 1 - 1 - 1) / 4 = t.val / 4; omega) (by show (t.val - 1 - 1 - 1) % 4 = 0; omega) hbi (by omega) a o
  refine (out_chain V c t.val hn ht h1 h2 h3 a o).trans ?_
  refine (congrArg₂ (· + ·) (congrArg₂ (· + ·) (congrArg₂ (· + ·) (congrArg (0 + ·) l0) l1) l2) l3).trans ?_
  refine Eq.trans ?_ (simEntry_eq_sum (V c main_v2) (V c main_v3) ⟨t.val / 4 * 128 + a.val, row_lt1 t a⟩ o).symm
  exact Cert.Spec.sum_blocks (simTerm (V c main_v2) (V c main_v3) ⟨t.val / 4 * 128 + a.val, row_lt1 t a⟩ o)

end Acc

end Cert.KernelIdeal.Hand

end
-- ==== Proof.KI.R1Final.lean ====
import proofs.«141043_j33517924778715_2_alg».proof.Proof.KI.R1Blocks
import proofs.«141043_j33517924778715_2_alg».proof.Proof.KI.R1Acc
import proofs.«141043_j33517924778715_2_alg».proof.Proof.KI.R1Sim
import Idealize.ShloMosaic.Lib.Pipeline.Value
import Idealize.ShloMosaic.Lib.ValueIdx
import Idealize.ShloMosaic.PureOps.Ideal.Laws

/-!
# The second region's result, entry by entry

The output of the second region is written back only at the last column block of each row block: at the points
`t` with `t mod 4 = 3`, where the accumulator has gathered all four column blocks. Point `4 b + 3` writes rows
`128 b … 128 b + 127`; the four of them tile the 512 rows, row `r` lying in the block of point `4 (r / 128) + 3`.
Entry `(i, o)` of what the region leaves is therefore the full sum over the 512 columns `j` of
`exp(−Σ_k |X(i, k, o) − Y(k, o, j)|) · [i ≠ j]`, with `|a| = max a (−a)`.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The result as one array. -/
def simArr (X : S512x16x64.Idx → EReal) (Y : S16x64x512.Idx → EReal) : S512x64.Idx → EReal :=
  fun i => simEntry X Y ⟨(i 0).val, (i 0).isLt⟩ ⟨(i 1).val, (i 1).isLt⟩

variable (V : (c : Dev nD) → (b : Ref sig .tc) → Buf (Elt Ideal) ((c : Thread nD τ).loc b))

/-- What a point at the last column block writes back is its row block of the result. -/
theorem flushed1_eq (c : Dev nD) (t : Fin cfg1.N) (hf : (cfg1.win 2).flush t = true) :
    (dat1 (F := Ideal) V c).flushed 2 t = ((cfg1.win 2).blk t).view.read (Elt Ideal) (simArr (V c main_v2) (V c main_v3)) := by
  have ht : t.val % 4 = 3 := (flush1_2 t).mp hf
  show (cfg1.win 2).cut (grid1.coords t) ((dat1 (F := Ideal) V c).after 2 t) = _
  rw [after1_2]
  obtain ⟨-, -, -, -, -, -, e6, e7⟩ := idx_facts1 t
  funext j
  obtain ⟨a, o, rfl⟩ : ∃ (a : Fin 128) (o : Fin 64), j = ix2 a o := ⟨j 0, j 1, eq_ix2 j⟩
  show ((outsAt1 (F := Ideal) V c t.val t.isLt).1 : S128x64.Idx → EReal) (ix2 a o)
    = simArr (V c main_v2) (V c main_v3) (((cfg1.win 2).blk t).view.emb (ix2 a o))
  refine (out_last V c t ht a o).trans ?_
  have hrow : (⟨t.val / 4 * 128 + a.val, row_lt1 t a⟩ : Fin 512)
      = ⟨((((cfg1.win 2).blk t).view.emb (ix2 a o)) 0).val, ((((cfg1.win 2).blk t).view.emb (ix2 a o)) 0).isLt⟩ := by
    apply Fin.ext
    show t.val / 4 * 128 + a.val = win1_2.index t (0 : Fin 2) * 128 + 1 * a.val
    omega
  have hcol : o = ⟨((((cfg1.win 2).blk t).view.emb (ix2 a o)) 1).val, ((((cfg1.win 2).blk t).view.emb (ix2 a o)) 1).isLt⟩ := by
    apply Fin.ext
    show o.val = win1_2.index t (1 : Fin 2) * 64 + 1 * o.val
    omega
  show simEntry (V c main_v2) (V c main_v3) ⟨t.val / 4 * 128 + a.val, row_lt1 t a⟩ o = _
  unfold simArr
  exact congrArg₂ (simEntry (V c main_v2) (V c main_v3)) hrow hcol

/-- An index of the result is in point `t`'s block iff each coordinate is in the block's range on its axis. -/
theorem mem_blk1 (t : Fin cfg1.N) (i : S512x64.Idx) :
    i ∈ ((cfg1.win 2).blk t).view.set ↔ ∀ a : Fin 2, win1_2.index t a * S128x64.size a ≤ (i a).val ∧ (i a).val < win1_2.index t a * S128x64.size a + S128x64.size a := by
  show i ∈ ((View.whole main_v4).slice (win1_2.rect t)).set ↔ _
  rw [View.set_slice_whole, Rect.mem_set_unit]
  exact Iff.rfl

/-- The four row blocks written back cover the result: row `r` lies in the block of point `4 (r / 128) + 3`. -/
theorem cover1 (i : S512x64.Idx) :
    ∃ t : Fin cfg1.N, (cfg1.win 2).flush t = true ∧ i ∈ ((cfg1.win 2).blk t).view.set := by
  have hi0 : (i 0).val < 512 := (i 0).isLt
  have hi1 : (i 1).val < 64 := (i 1).isLt
  have hN : cfg1.N = 16 := N_1
  have hlt : 4 * ((i 0).val / 128) + 3 < cfg1.N := lt_of_lt_of_eq (by omega : 4 * ((i 0).val / 128) + 3 < 16) hN.symm
  refine ⟨⟨4 * ((i 0).val / 128) + 3, hlt⟩, (flush1_2 _).mpr (by show (4 * ((i 0).val / 128) + 3) % 4 = 3; omega), ?_⟩
  rw [mem_blk1]
  obtain ⟨-, -, -, -, -, -, e6, e7⟩ := idx_facts1 ⟨4 * ((i 0).val / 128) + 3, hlt⟩
  have e6' : win1_2.index ⟨4 * ((i 0).val / 128) + 3, hlt⟩ (0 : Fin 2) = (4 * ((i 0).val / 128) + 3) / 4 := e6
  intro a
  match a with
  | ⟨0, _⟩ =>
    show win1_2.index ⟨4 * ((i 0).val / 128) + 3, hlt⟩ (0 : Fin 2) * 128 ≤ (i 0).val ∧ (i 0).val < win1_2.index ⟨4 * ((i 0).val / 128) + 3, hlt⟩ (0 : Fin 2) * 128 + 128
    rw [e6']
    omega
  | ⟨1, _⟩ =>
    show win1_2.index ⟨4 * ((i 0).val / 128) + 3, hlt⟩ (1 : Fin 2) * 64 ≤ (i 1).val ∧ (i 1).val < win1_2.index ⟨4 * ((i 0).val / 128) + 3, hlt⟩ (1 : Fin 2) * 64 + 64
    rw [e7]
    omega

/-- The result array after the region, as one function of the two inputs as the region finds them. -/
theorem final1 (c : Dev nD) : (dat1 (F := Ideal) V c).arrAt 2 cfg1.N = simArr (V c main_v2) (V c main_v3) :=
  (dat1 (F := Ideal) V c).arrAt_eq_of_cover 2 (simArr (V c main_v2) (V c main_v3)) (fun t hf => flushed1_eq V c t hf) cover1

/-- Entry `(i, o)` of the result after the region. -/
theorem final1_apply (c : Dev nD) (i : Fin 512) (o : Fin 64) :
    ((dat1 (F := Ideal) V c).arrAt 2 cfg1.N : S512x64.Idx → EReal) (ix2 i o) = simEntry (V c main_v2) (V c main_v3) i o := by
  rw [final1 V c]
  rfl

end Cert.KernelIdeal.Hand

end
-- ==== Proof.KI.Result.lean ====
/-
  The idealized kernel program's result as one function of its two arguments x and T.
  Region 0 leaves the product P = x · T in its output array; the host lines between the regions re-lay it:
  entry (i, k, o) of the row-block operand and entry (k, o, j) of the column-block operand are both entries of
  the family M(i, o, k) = P(i, 16 · o + k). Region 1 leaves, at (i, o), the sum over all rows j of
  exp(−Σ_k |M(i,o,k) − M(j,o,k)|) · [i ≠ j], accumulated over the four column blocks; the last host line
  joins x and that block side by side.
-/
import proofs.«141043_j33517924778715_2_alg».proof.Proof.KI.Run
import proofs.«141043_j33517924778715_2_alg».proof.Proof.KI.R0Value
import proofs.«141043_j33517924778715_2_alg».proof.Proof.KI.HostStages
import proofs.«141043_j33517924778715_2_alg».proof.Proof.KI.R1Final
import proofs.«141043_j33517924778715_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The first argument on core c, as a function of its index. -/
abbrev xIn (c : Dev nD) : S512x512.Idx → EReal := m ((c : Thread nD τ).loc main_arg0)
/-- The second argument on core c. -/
abbrev tIn (c : Dev nD) : S512x1024.Idx → EReal := m ((c : Thread nD τ).loc main_arg1)

/-- After region 0 its output array holds the product: entry (i, n) is Σ_c x(i,c) · T(c,n). -/
theorem prod_entry (c : Dev nD) (i : Fin 512) (n : Fin 1024) :
    (W1 m ρ c (Proc.devRef .tc main_v0) : S512x1024.Idx → EReal) (ix2 i n) = Cert.Spec.prod (xIn m c) (tIn m c) i n :=
  (congrFun (W1_arr m ρ c 2) (ix2 i n)).trans (final0_apply (V0 m ρ) c i n)

/-- The row-block operand of region 1: entry (i, k, o) is M(i, o, k). -/
theorem rowOperand_entry (c : Dev nD) (i : Fin 512) (k : Fin 16) (o : Fin 64) :
    (V2 m ρ c main_v2 : S512x16x64.Idx → EReal) (ix3 i k o) = Cert.Spec.fam (xIn m c) (tIn m c) i o k :=
  (stage_v2 (W1 m ρ c) i k o).trans (prod_entry m ρ c i (Cert.Spec.col o k))

/-- The column-block operand of region 1: entry (k, o, j) is M(j, o, k). -/
theorem colOperand_entry (c : Dev nD) (k : Fin 16) (o : Fin 64) (j : Fin 512) :
    (V2 m ρ c main_v3 : S16x64x512.Idx → EReal) (ix3 k o j) = Cert.Spec.fam (xIn m c) (tIn m c) j o k :=
  (stage_v3 (W1 m ρ c) k o j).trans (prod_entry m ρ c j (Cert.Spec.col o k))

/-- The first argument is still in place when the last host line reads it. -/
theorem arg0_kept (c : Dev nD) : (W3 m ρ c (Proc.devRef .tc main_arg0) : S512x512.Idx → EReal) = xIn m c :=
  (stage_keep2 (W3 m ρ c) main_arg0 (by decide)).symm.trans (W4_main_arg0 m ρ c)

/-- When the two operands are re-layings of one family M — X(i,k,o) = M(i,o,k) and Y(k,o,j) = M(j,o,k) — the
    row-against-all-rows similarity sum is the specification's ob(M). -/
theorem simEntry_fam (X : (⟨3, ![512, 16, 64]⟩ : Shape).Idx → EReal) (Y : (⟨3, ![16, 64, 512]⟩ : Shape).Idx → EReal)
    (M : Fin 512 → Fin 64 → Fin 16 → EReal) (hX : ∀ i k o, X (ix3 i k o) = M i o k) (hY : ∀ k o j, Y (ix3 k o j) = M j o k)
    (i : Fin 512) (o : Fin 64) : simEntry X Y i o = Cert.Spec.ob M i o := by
  unfold simEntry Cert.Spec.ob Cert.Spec.term Cert.Spec.dist
  refine Finset.sum_congr rfl fun j _ => ?_
  simp only [hX, hY]

/-- After region 1 its output array holds the similarity block: entry (i, o) is ob(M)(i, o). -/
theorem ob_entry (c : Dev nD) (i : Fin 512) (o : Fin 64) :
    (W3 m ρ c (Proc.devRef .tc main_v4) : S512x64.Idx → EReal) (ix2 i o) = Cert.Spec.ob (Cert.Spec.fam (xIn m c) (tIn m c)) i o :=
  (congrFun (W3_arr m ρ c 2) (ix2 i o)).trans ((final1_apply (V2 m ρ) c i o).trans
    (simEntry_fam _ _ (Cert.Spec.fam (xIn m c) (tIn m c)) (rowOperand_entry m ρ c) (colOperand_entry m ρ c) i o))

/-- The similarity block as an array of 512 rows and 64 columns. -/
def obArr (x : S512x512.Idx → EReal) (T : S512x1024.Idx → EReal) : S512x64.Idx → EReal :=
  fun idx => Cert.Spec.ob (Cert.Spec.fam x T) ⟨(idx 0).val, (idx 0).isLt⟩ ⟨(idx 1).val, (idx 1).isLt⟩

/-- THE KERNEL PROGRAM'S RESULT: x and the similarity block side by side. -/
theorem result (c : Dev nD) :
    (W4 m ρ c (Proc.devRef .tc main_v5) : S512x576.Idx → EReal)
      = concatenate S512x576 1 [⟨S512x512, xIn m c⟩, ⟨S512x64, obArr (xIn m c) (tIn m c)⟩] concatenates_S512x512_S512x64_S512x576_d1 := by
  refine (stage_v5 (W3 m ρ c)).trans ?_
  have e1 : (W3 m ρ c (Proc.devRef .tc main_arg0) : S512x512.Idx → EReal) = xIn m c := arg0_kept m ρ c
  have e2 : (W3 m ρ c (Proc.devRef .tc main_v4) : S512x64.Idx → EReal) = obArr (xIn m c) (tIn m c) :=
    funext fun idx => by
      rw [eq_ix2 idx]
      exact ob_entry m ρ c ⟨(idx 0).val, (idx 0).isLt⟩ ⟨(idx 1).val, (idx 1).isLt⟩
  rw [e1, e2]

/-- The result array, as the contents of the result buffer on core c. -/
def resultArr (c : Dev nD) : S512x576.Idx → EReal :=
  concatenate S512x576 1 [⟨S512x512, xIn m c⟩, ⟨S512x64, obArr (xIn m c) (tIn m c)⟩] concatenates_S512x512_S512x64_S512x576_d1

/-- THE KERNEL PROGRAM'S RUN: every weakly fair execution ends, the result buffer holding x and the similarity
    block side by side, the two arguments as launched. -/
theorem run_result : θ_run defs (onTc (τ := τ) (main (F := Ideal))) ⟨m, fun _ => 0, ρ⟩ (fun r => ∀ c : Dev nD,
      r.2.mem ((c.tc : Thread nD τ).loc main_v5) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v5 (by decide))).trans (result m ρ c),
     (h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.LibDegreeLaws.lean ====
/-
  Scalar facts on the extended reals that the layer's two forms meet at.

  * The word 0x3F800000 is the number 1 (0x00000000 is 0: the library's `Ideal.ofBits_zero_f32`).
  * An adjacency entry's test "nonzero" is read as a number in two ways — the one-bit test widened to 32 bits and
    read signed, or the one-bit test read unsigned —: both are the indicator 1 (nonzero) / 0 (zero).
  * For a degree 1 + s with s ≥ 0 real, the reciprocal square root is the real number 1 / sqrt (1 + s), and so is
    "1 / sqrt deg where deg > 0, else 0": the degree is positive, so the guard takes the quotient, and the square
    root is not zero, so the quotient is the product with its reciprocal.
-/
import Idealize.ShloMosaic.PureOps.Ideal
import Idealize.ShloMosaic.PureOps.Ideal.Laws

noncomputable section

namespace Cert.ScalarLaws

open Idealize.ShloMosaic

/-- The word of 1.0 denotes the real number 1. -/
theorem ofBits_one : Ideal.ofBits .f32 0x3F800000#32 = ((1 : ℝ) : EReal) := by
  simp [Ideal.ofBits, Ideal.ieee, -EReal.coe_mul]; norm_num

/-- The indicator of a nonzero word. -/
def ind (v : BitVec 32) : ℝ := if v = 0#32 then 0 else 1

theorem ind_nonneg (v : BitVec 32) : 0 ≤ ind v := by
  unfold ind; split <;> norm_num

/-- The test, widened to 32 bits and read signed, is the indicator. -/
theorem signed_test (v : BitVec 32) :
    ((((IntOp.cmpi .ne v 0#32).setWidth 32).toInt : ℝ) : EReal) = ((ind v : ℝ) : EReal) := by
  unfold ind IntOp.cmpi
  by_cases h : v = 0#32
  · subst h; simp
  · have hb : (v != 0#32) = true := by simpa using h
    simp [hb, h]

/-- The test read unsigned is the indicator. -/
theorem unsigned_test (v : BitVec 32) :
    (((IntOp.cmpi .ne v 0#32).toNat : ℝ) : EReal) = ((ind v : ℝ) : EReal) := by
  unfold ind IntOp.cmpi
  by_cases h : v = 0#32
  · subst h; simp
  · have hb : (v != 0#32) = true := by simpa using h
    simp [hb, h]

/-- The reciprocal square root of the degree 1 + s. -/
def dinvR (s : ℝ) : ℝ := (Real.sqrt (s + 1))⁻¹

/-- The kernel's form: rsqrt (s + 1). -/
theorem rsqrt_deg (s : ℝ) (hs : 0 ≤ s) :
    Ideal.rsqrt (((s : ℝ) : EReal) + ((1 : ℝ) : EReal)) = ((dinvR s : ℝ) : EReal) := by
  rw [← EReal.coe_add, Ideal.rsqrt_coe, if_neg (by linarith), if_neg (by linarith)]
  rfl

/-- The reference's form: 1 / sqrt deg where deg > 0, else 0, at deg = 0 + (s + 1). -/
theorem guarded_deg (s : ℝ) (hs : 0 ≤ s) :
    Scalar.select (Ideal.cmp .ogt ((0 : EReal) + (((s : ℝ) : EReal) + ((1 : ℝ) : EReal))) 0)
        (Ideal.div ((1 : ℝ) : EReal) (Ideal.sqrt ((0 : EReal) + (((s : ℝ) : EReal) + ((1 : ℝ) : EReal))))) (0 : EReal)
      = ((dinvR s : ℝ) : EReal) := by
  have hpos : (0 : ℝ) < s + 1 := by linarith
  have hsq : Real.sqrt (s + 1) ≠ 0 := (Real.sqrt_pos.mpr hpos).ne'
  rw [zero_add, ← EReal.coe_add, Ideal.sqrt_coe, if_neg (by linarith), Ideal.div_coe hsq]
  have hc : Ideal.cmp .ogt (((s + 1 : ℝ)) : EReal) 0 = 1#1 := by
    have hlt : (0 : EReal) < ((s + 1 : ℝ) : EReal) := by exact_mod_cast hpos
    show BitVec.ofBool (decide ((0 : EReal) < ((s + 1 : ℝ) : EReal))) = 1#1
    rw [decide_eq_true hlt]
    rfl
  rw [hc]
  show (if (1#1 : BitVec 1) = 1 then _ else _) = _
  rw [if_pos (by decide : (1#1 : BitVec 1) = 1), ← EReal.coe_mul]
  unfold dinvR
  congr 1
  rw [one_mul, one_div]

end Cert.ScalarLaws

end
-- ==== Proof.RefValue.lean ====
/-
  The reference program's result block read against the specification.

  The reference forms the product x · T, reads each of its rows as 64 vectors of length 16, and for every pair of
  rows (i, j) and feature o sums the absolute differences over the 16 positions; the negated sum is exponentiated,
  multiplied by a mask that is 0 on the diagonal and 1 off it, and summed over j. Read index by index this is the
  specification's ob at the family fam x T; the last operation joins the first argument and that block side by side.
-/
import proofs.«141043_j33517924778715_2_alg».proof.Proof.Gen.ReferenceIdeal.Read
import proofs.«141043_j33517924778715_2_alg».proof.Proof.Spec
import proofs.«141043_j33517924778715_2_alg».proof.Proof.LibDegreeLaws
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The product, reshaped -/

/-- Row-major position of (i, o, k) in a 512 × 64 × 16 array, divided by the row length 1024, is the row i. -/
theorem row_of (i : Fin 512) (o : Fin 64) (k : Fin 16) :
    ((i.val * 64 + o.val) * 16 + k.val) / 1024 = i.val := by
  have := i.isLt; have := o.isLt; have := k.isLt; omega

/-- … and its remainder is the column 16 · o + k. -/
theorem col_of (i : Fin 512) (o : Fin 64) (k : Fin 16) :
    ((i.val * 64 + o.val) * 16 + k.val) % 1024 = o.val * 16 + k.val := by
  have := i.isLt; have := o.isLt; have := k.isLt; omega

theorem lidx_eq (i : Fin 512) (o : Fin 64) (k : Fin 16) (c : Fin 512) :
    lidx_main_v0 (idx_main_v1 (ix3 i o k)) c = ix2 i c :=
  funext fun a => Fin.ext (by
    match a with
    | ⟨0, _⟩ => exact row_of i o k
    | ⟨1, _⟩ => rfl)

theorem ridx_eq (i : Fin 512) (o : Fin 64) (k : Fin 16) (c : Fin 512) :
    ridx_main_v0 (idx_main_v1 (ix3 i o k)) c = ix2 c (Cert.Spec.col o k) :=
  funext fun a => Fin.ext (by
    match a with
    | ⟨0, _⟩ => rfl
    | ⟨1, _⟩ => exact col_of i o k)

/-- Entry (i, o, k) of the reshaped product is the family's M(i, o, k). -/
theorem fam_apply (x0 : (⟨S512x512, .f32⟩ : BufTy).Contents (Elt Ideal)) (x1 : (⟨S512x1024, .f32⟩ : BufTy).Contents (Elt Ideal))
    (i : Fin 512) (o : Fin 64) (k : Fin 16) :
    val_main_v1 (F := Ideal) x0 x1 (ix3 i o k) = Cert.Spec.fam x0 x1 i o k := by
  rw [val_main_v1_apply, val_main_v0_apply]
  unfold Cert.Spec.fam Cert.Spec.prod
  refine Finset.sum_congr rfl fun c _ => ?_
  rw [lidx_eq, ridx_eq]

/-! ## The distance -/

theorem left_idx_eq (i j : Fin 512) (o : Fin 64) (k : Fin 16) :
    idx_main_v2 (idx_main_v4 (idx_main_v8 (ix3 i j o) k)) = ix3 i o k :=
  funext fun a => Fin.ext (by
    match a with
    | ⟨0, _⟩ => rfl
    | ⟨1, _⟩ => rfl
    | ⟨2, _⟩ => rfl)

theorem right_idx_eq (i j : Fin 512) (o : Fin 64) (k : Fin 16) :
    idx_main_v3 (idx_main_v5 (idx_main_v8 (ix3 i j o) k)) = ix3 j o k :=
  funext fun a => Fin.ext (by
    match a with
    | ⟨0, _⟩ => rfl
    | ⟨1, _⟩ => rfl
    | ⟨2, _⟩ => rfl)

/-- The sum over the 16 positions of |M(i,o,k) − M(j,o,k)|, started from the zero word, is the distance. -/
theorem dist_apply (x0 : (⟨S512x512, .f32⟩ : BufTy).Contents (Elt Ideal)) (x1 : (⟨S512x1024, .f32⟩ : BufTy).Contents (Elt Ideal))
    (i j : Fin 512) (o : Fin 64) :
    val_main_v8 (F := Ideal) x0 x1 (ix3 i j o) = Cert.Spec.dist (Cert.Spec.fam x0 x1) i j o := by
  rw [val_main_v8_apply, val_main_cst_apply, Ideal.ofBits_def, Ideal.ofBits_zero_f32, zero_add]
  unfold Cert.Spec.dist
  refine Finset.sum_congr rfl fun k _ => ?_
  rw [val_main_v7_apply, val_main_v6_apply, val_main_v4_apply, val_main_v5_apply, val_main_v2_apply, val_main_v3_apply,
    left_idx_eq, right_idx_eq, fam_apply, fam_apply, Ideal.hostAbsf_def, Ideal.absf_def, Ideal.subf_def]

/-! ## The mask -/

/-- Two row numbers below 512 have the same 32-bit word only if they are equal. -/
theorem word_inj (a b : Nat) (ha : a < 512) (hb : b < 512) (h : BitVec.ofNat 32 a = BitVec.ofNat 32 b) : a = b := by
  have h' := congrArg BitVec.toNat h
  rw [BitVec.toNat_ofNat, BitVec.toNat_ofNat, Nat.mod_eq_of_lt (by omega), Nat.mod_eq_of_lt (by omega)] at h'
  exact h'

/-- The comparison of the two iota words, read unsigned as a number: 1 on the diagonal, 0 off it. -/
theorem diag_word (i j : Fin 512) :
    (((IntOp.cmpi .eq (IntOp.addi (BitVec.ofNat 32 i.val) 0#32) (BitVec.ofNat 32 j.val)).toNat : ℝ) : EReal)
      = if i = j then 1 else 0 := by
  unfold IntOp.cmpi IntOp.addi
  rw [BitVec.add_zero]
  by_cases h : i = j
  · subst h; simp
  · have hne : BitVec.ofNat 32 i.val ≠ BitVec.ofNat 32 j.val :=
      fun e => h (Fin.ext (word_inj _ _ i.isLt j.isLt e))
    simp [h, hne]

theorem mask_idx_eq (i j : Fin 512) (o : Fin 64) :
    idx_main_v17 (idx_main_v20 (ix3 i j o)) = ix2 i j :=
  funext fun a => Fin.ext (by
    match a with
    | ⟨0, _⟩ => rfl
    | ⟨1, _⟩ => rfl)

/-- The mask is 1 minus the diagonal's indicator: 0 on the diagonal, 1 off it. -/
theorem mask_apply (i j : Fin 512) (o : Fin 64) :
    val_main_v20 (F := Ideal) (ix3 i j o) = Cert.Spec.offDiag i j := by
  rw [val_main_v20_apply, val_main_v19_apply, val_main_v18_apply, val_main_cst_0_apply, val_main_v17_apply,
    val_main_v16_apply, val_main_v15_apply, val_main_v14_apply, val_main_v11_apply, val_main_v13_apply,
    val_main_c_apply, val_main_v12_apply, mask_idx_eq, Ideal.ofBits_def, Cert.ScalarLaws.ofBits_one, Ideal.subf_def]
  show ((1 : ℝ) : EReal) - (((IntOp.cmpi .eq (IntOp.addi (BitVec.ofNat 32 i.val) 0#32) (BitVec.ofNat 32 j.val)).toNat : ℝ) : EReal)
    = Cert.Spec.offDiag i j
  rw [diag_word]
  unfold Cert.Spec.offDiag
  by_cases h : i = j
  · rw [if_pos h, if_pos h, ← EReal.coe_one, ← EReal.coe_sub, sub_self, EReal.coe_zero]
  · rw [if_neg h, if_neg h]; norm_num

/-! ## The result block and the joined result -/

theorem sum_idx_eq (i : Fin 512) (o : Fin 64) (j : Fin 512) :
    idx_main_v22 (ix2 i o) j = ix3 i j o :=
  funext fun a => Fin.ext (by
    match a with
    | ⟨0, _⟩ => rfl
    | ⟨1, _⟩ => rfl
    | ⟨2, _⟩ => rfl)

/-- Entry (i, o) of the reference's block: the sum over every row j of exp(−d(i,j,o)) · [i ≠ j]. -/
theorem ob_apply (x0 : (⟨S512x512, .f32⟩ : BufTy).Contents (Elt Ideal)) (x1 : (⟨S512x1024, .f32⟩ : BufTy).Contents (Elt Ideal))
    (i : Fin 512) (o : Fin 64) :
    val_main_v22 (F := Ideal) x0 x1 (ix2 i o) = Cert.Spec.ob (Cert.Spec.fam x0 x1) i o := by
  rw [val_main_v22_apply, val_main_cst_1_apply, Ideal.ofBits_def, Ideal.ofBits_zero_f32, zero_add]
  unfold Cert.Spec.ob Cert.Spec.term
  refine Finset.sum_congr rfl fun j _ => ?_
  rw [sum_idx_eq, val_main_v21_apply, val_main_v10_apply, val_main_v9_apply, dist_apply, mask_apply,
    Ideal.hostUnary_exp_def, Ideal.hostNegf_def, Ideal.negf_def, Ideal.mulf_def]

/-- The reference's result is its first argument and that block, joined along the columns. -/
theorem result_eq (x0 : (⟨S512x512, .f32⟩ : BufTy).Contents (Elt Ideal)) (x1 : (⟨S512x1024, .f32⟩ : BufTy).Contents (Elt Ideal)) :
    val_main_v23 (F := Ideal) x0 x1
      = concatenate S512x576 1 [⟨S512x512, x0⟩, ⟨S512x64, val_main_v22 (F := Ideal) x0 x1⟩] concatenates_S512x512_S512x64_S512x576_d1 := by
  unfold val_main_v23
  rfl

end Cert.ReferenceIdeal.RefValue

end
-- ==== Proof.lean ====
/-
  The certificate's five claims.

  Both programs compute, from x (512 × 512) and T (512 × 1024), the array of 512 rows whose first 512 columns are
  x and whose last 64 columns are ob(i, o) = Σ_j exp(−Σ_k |M(i,o,k) − M(j,o,k)|) · [i ≠ j], where
  M(i, o, k) = (x · T)(i, 16 · o + k) (Proof/Spec.lean).

  The kernel program runs two kernel regions. The first writes x · T row block by row block. Host lines re-lay
  the product into a row-block operand (i, k, o) and a column-block operand (k, o, j). The second walks a 4 × 4
  grid of row blocks and column blocks, keeping for each row block an accumulator that starts at zero at column
  block 0, gains at every column block the lane sum over that block's 128 rows j of exp(−distance) · [i ≠ j], and
  is copied to the output at column block 3: the four partial sums are one sum over all 512 rows j. The reference
  forms the same terms by broadcasting and reduces over j in one sum. Sums of extended reals may be regrouped
  freely, so the two results agree at every index with no finiteness needed; the precondition is never opened.

  Frames: each kernel region's body is run whole (the matmul body once; the distance body in its three control
  cases), the run of @main is the list region, host lines, region, host line, and every buffer's final contents
  are named, the arguments' being their launch contents. The word-level program has the same text, so its frame
  is the same proof read at the word-level instance. The idealization rewrote nothing, so that claim is trivial.
-/
import proofs.«141043_j33517924778715_2_alg».proof.Defs
import proofs.«141043_j33517924778715_2_alg».proof.Proof.Gen.Kernel
import proofs.«141043_j33517924778715_2_alg».proof.Proof.Gen.KernelIdeal
import proofs.«141043_j33517924778715_2_alg».proof.Proof.Gen.ReferenceIdeal
import proofs.«141043_j33517924778715_2_alg».proof.Proof.Gen.Pre_finite_inputs
import proofs.«141043_j33517924778715_2_alg».proof.Proof.K.Run
import proofs.«141043_j33517924778715_2_alg».proof.Proof.KI.Result
import proofs.«141043_j33517924778715_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference has no kernel: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's similarity block is the specification's, at every index. -/
theorem ref_block (x : Cert.ReferenceIdeal.S512x512.Idx → EReal) (T : Cert.ReferenceIdeal.S512x1024.Idx → EReal) :
    Cert.ReferenceIdeal.Read.val_main_v22 (F := Ideal) x T = Cert.KernelIdeal.Hand.obArr x T :=
  funext fun idx => by
    rw [eq_ix2 idx]
    exact Cert.ReferenceIdeal.RefValue.ob_apply x T ⟨(idx 0).val, (idx 0).isLt⟩ ⟨(idx 1).val, (idx 1).isLt⟩

/-- From memories agreeing on x and T both programs end with x and the similarity block side by side. -/
theorem algebraic : Cert.algebraic_KernelIdeal_ReferenceIdeal := by
  intro m ρ m' ρ' _ hagree
  refine ⟨fun c => Cert.KernelIdeal.Hand.resultArr m c, Cert.KernelIdeal.Hand.run_result m ρ, ?_⟩
  refine (θ_run Cert.ReferenceIdeal.defs _ _).mono (fun r h c => ⟨?_, (h c).2⟩) (Cert.ReferenceIdeal.Value.run (F := Ideal) m' ρ')
  rw [(h c).1, Cert.ReferenceIdeal.Read.val_main_v23_eq, Cert.ReferenceIdeal.RefValue.result_eq, ref_block, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
